-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S512x128 : Shape := ⟨2, ![512, 128]⟩
abbrev S512x1 : Shape := ⟨2, ![512, 1]⟩
abbrev S512 : Shape := ⟨1, ![512]⟩
abbrev S1024x128 : Shape := ⟨2, ![1024, 128]⟩
abbrev S1x1024 : Shape := ⟨2, ![1, 1024]⟩
abbrev S512x1024 : Shape := ⟨2, ![512, 1024]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x1, .i32⟩
  | .hbm, ⟨4, _⟩ => ⟨S1x8192, .i32⟩
  | .hbm, ⟨5, _⟩ => ⟨S8192, .f32⟩
  | .hbm, ⟨6, _⟩ => ⟨S_, .f32⟩
  | .hbm, ⟨7, _⟩ => ⟨S_, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S512x1, .i32⟩
  | .local _ .vmem, ⟨4, _⟩ => ⟨S512x1, .i32⟩
  | .local _ .vmem, ⟨5, _⟩ => ⟨S1x8192, .i32⟩
  | .local _ .vmem, ⟨6, _⟩ => ⟨S512, .f32⟩
  | .local _ .vmem, ⟨7, _⟩ => ⟨S512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v17 : BitVec 32 := Scalar.muli arg6 c1024_i32
  v17
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v17 : BitVec 32 := Scalar.muli arg6 c1024_i32
  let v18 : BitVec 32 := v17
  let v19 : Index := Scalar.indexCast v18
  let c0_9 : Index := 0#32
  ![v19.toNat, 0]
def k0_off2 (k0_t1 : Fin k0_t1_loop.trips) : Fin 2 → Nat :=
  let c0_10 : Index := 0#32
  let c0_i32 : BitVec 32 := 0#32
  let c1_i32 : BitVec 32 := 1#32
  let arg6 : BitVec 32 := Scf.iv c0_i32 c1_i32 k0_t1
  let c1024_i32 : BitVec 32 := 1024#32
  let v17 : BitVec 32 := Scalar.muli arg6 c1024_i32
  let v18 : BitVec 32 := v17
  let v22 : Index := Scalar.indexCast v18
  ![0, v22.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  h_S1024x128 : 0 < S1024x128.numel
  shapeCasts_S1024x128_S1024x128 : S1024x128.ShapeCasts S1024x128
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  reducesTo_S8192_S_d0 : S8192.ReducesTo [0] S_
  h_S_ : 0 < S_.numel
  dot_S512x128_S1024x128_S512x1024_1_1_0_0_n_n_wf : DotDims.WF S512x128 S1024x128 S512x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  k0_off2_inb : ∀ k0_t1 : Fin k0_t1_loop.trips, ∀ a, (k0_off2 k0_t1) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .bf16 = 32 ∨ (Rect.block (s := S8192x128) S512x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S8192.size a
  hwx0_4 : ∀ i : grid0.Coords, EltTy.bits .f32 = 32 ∨ (Rect.block (s := S8192) S512.size (cc0_transform_4 i) (hinb0_4 i)).WholeWords (EltTy.packing .f32)

variable [Facts₀]

def dot_S512x128_S1024x128_S512x1024_1_1_0_0_n_n : DotDims S512x128 S1024x128 S512x1024 where
  lhsContracting := [1]
  rhsContracting := [1]
  lhsNonContracting := [0]
  rhsNonContracting := [0]
  lhsBatch := []
  rhsBatch := []
  wf := dot_S512x128_S1024x128_S512x1024_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S8192x1, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KBody.lean ====
import proofs.«178583_j7559142441509_2_alg».proof.Proof.Gen.Kernel.Launch
import proofs.«178583_j7559142441509_2_alg».proof.Proof.Gen.Kernel.Skeleton
import proofs.«178583_j7559142441509_2_alg».proof.Proof.Gen.Kernel.Loops
import proofs.«178583_j7559142441509_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The kernel body on any whole staging buffers

One grid step reads its row tile and its tile of row ids whole, walks the eight column chunks of the resident
operands keeping the running pair (largest masked score, smallest masked score) in registers, and stores the 512
costs into the output buffer with one whole-buffer store. The four input buffers are left as found. -/

set_option maxHeartbeats 1000000 in
/-- What the body's one store leaves in the output buffer, as a list of pieces, with the proof that on whole
    staging buffers — the inputs at their contents, the output at anything — the body runs to the continuation
    holding the inputs as they were and the output with those pieces written. -/
noncomputable def kernelRun (c : Dev nD) (i : grid0.Coords) (arg1 : Memref sig .tc .vmem S512x128 .bf16) (harg1 : arg1.IsWhole) (arg2 : Memref sig .tc .vmem S8192x128 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512 .f32) (harg5 : arg5.IsWhole)
    (x1 : Vec F S512x128 .bf16) (x2 : Vec F S8192x128 .bf16) (x3 : Vec F S512x1 .i32) (x4 : Vec F S1x8192 .i32) :
    { L5 : List (View.Piece (Elt F) S512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)) -∗ K ⟨⟩))
          ⊢ wp frame (wpE (defs₀ (F := F)) Variants.none c none) E (cc0__triplet_kernel i arg1 harg1 arg2 harg2 arg3 harg3 arg4 harg4 arg5 harg5) K } := by
  refine ⟨?_, fun E K => ?run⟩
  case run =>
    simp only [cc0__triplet_kernel_eq_skeleton]; unfold cc0__triplet_kernel_skel
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := harg1.eq_unread hf1
    obtain rfl := harg2.eq_unread hf2
    obtain rfl := harg3.eq_unread hf3
    obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.Kernel.Hand

end
-- ==== Proof.KKit.lean ====
import proofs.«178583_j7559142441509_2_alg».proof.Proof.Gen.Kernel.Launch
import proofs.«178583_j7559142441509_2_alg».proof.Proof.Gen.Kernel.Skeleton
import proofs.«178583_j7559142441509_2_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one kernel call

Three host lines come first (the row matrix rounded to the kernel's operand format, the id vector stood up as a
column and as a row), then the call, then two more (a zero, and the sum of the call's 8192 results). -/

/-- A core's buffer contents when the call is entered: the launch contents after the three lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program reduces to the call continued by the two later lines, entered at the contents after the three
    earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging buffer at point `t`, as the pipeline passes it to the body, and its wholeness. -/
abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)

/-- One staging buffer of the output window, through which its contents are stated (the choice does not matter:
    a covering list of pieces reads back the same through any whole buffer). -/
abbrev VO : View sig .tc .vmem S512 .f32 := (Memref.whole cc0_stg4_0 : Memref sig .tc .vmem S512 .f32).view

end Cert.Kernel.Hand

end
-- ==== Proof.LibShareChain.lean ====
/-
  Dealing one buffer's share to a row of readers.

  A share can be halved, and a points-to at a share is the two points-tos at its halves.  Keeping the right half
  and halving it again, n times, deals the share to n + 1 holders: holder i < n gets the left half of what was
  left after i halvings, and the last holder gets what is left after n.  Read from the left, the points-to at
  the share is then a right-nested row of the holders' points-tos; this file states one step of that row.
-/
import Idealize.ShloMosaic.Rules.PointsTo

noncomputable section

namespace Cert.LibShareChain

open Idealize.ShloMosaic Idealize.SL Idealize.SL.RA Idealize.SL.Sem
open Idealize.SL.BI (sProp)
open scoped Idealize.SL.BI
open Idealize.SL.BI.BIBase

/-- What is left of the share q after keeping the right half n times. -/
def rest (q : PosShare TreeShare) : ℕ → PosShare TreeShare
  | 0 => q
  | n + 1 => (rest q n).right

@[simp] theorem rest_zero (q : PosShare TreeShare) : rest q 0 = q := rfl
theorem rest_succ (q : PosShare TreeShare) (n : ℕ) : rest q (n + 1) = (rest q n).right := rfl

/-- Holder i's share when q is dealt to n + 1 holders: the left half of the rest for i < n, the rest for i = n. -/
def deal (q : PosShare TreeShare) (n i : ℕ) : PosShare TreeShare :=
  if i < n then (rest q i).left else rest q n

theorem deal_lt (q : PosShare TreeShare) {n i : ℕ} (h : i < n) : deal q n i = (rest q i).left := if_pos h
theorem deal_last (q : PosShare TreeShare) (n : ℕ) : deal q n n = rest q n := if_neg (lt_irrefl n)

section
variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

/-- One step of the row: what is left after i halvings is holder i's left half beside what is left after i + 1. -/
theorem pointsTo_rest_step {ℓ : Loc nD τ sig} (I : Finset (Idx ℓ)) (f : Buf Val ℓ) (q : PosShare TreeShare) (i : ℕ) :
    (ℓ ↦[I]{rest q i} f : sProp 𝕄) ⊢ iprop((ℓ ↦[I]{(rest q i).left} f) ∗ ℓ ↦[I]{rest q (i + 1)} f) :=
  (pointsTo_share (PosShare.mem_left_op_right (rest q i))).1

end

end Cert.LibShareChain

end
-- ==== Proof.KData.lean ====
import proofs.«178583_j7559142441509_2_alg».proof.Proof.KBody
import proofs.«178583_j7559142441509_2_alg».proof.Proof.KKit
import proofs.«178583_j7559142441509_2_alg».proof.Proof.LibShareChain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.LibShareChain (rest)

variable (m : (ℓ : Loc nD τ sig) → Buf (Elt F) ℓ) (ρ : Dev nD → PrngReg)

/-! ## What the output buffer holds after a grid step -/

/-- The body's one store covers the output buffer: it writes all 512 entries at once. -/
theorem cover (c : Dev nD) (i : grid0.Coords) (arg1 : Memref sig .tc .vmem S512x128 .bf16) (harg1 : arg1.IsWhole) (arg2 : Memref sig .tc .vmem S8192x128 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512 .f32) (harg5 : arg5.IsWhole)
    (x1 : Vec F S512x128 .bf16) (x2 : Vec F S8192x128 .bf16) (x3 : Vec F S512x1 .i32) (x4 : Vec F S1x8192 .i32) (y : S512.Idx) :
    ∃ pc ∈ (kernelRun c i arg1 harg1 arg2 harg2 arg3 harg3 arg4 harg4 arg5 harg5 x1 x2 x3 x4).1, y ∈ pc.1.set :=
  View.cover_of_tiledL (kernelRun c i arg1 harg1 arg2 harg2 arg3 harg3 arg4 harg4 arg5 harg5 x1 x2 x3 x4).1 S512.size (by sl_kernel_rfl) y

/-- What the run leaves in the output's staging buffer: its pieces read back over anything. -/
def out (c : Dev nD) (i : grid0.Coords) (arg1 : Memref sig .tc .vmem S512x128 .bf16) (harg1 : arg1.IsWhole) (arg2 : Memref sig .tc .vmem S8192x128 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512 .f32) (harg5 : arg5.IsWhole)
    (x1 : Vec F S512x128 .bf16) (x2 : Vec F S8192x128 .bf16) (x3 : Vec F S512x1 .i32) (x4 : Vec F S1x8192 .i32) : Vec F S512 .f32 :=
  VO.read (Elt F) (VO.writes (Elt F) VO.junk (kernelRun c i arg1 harg1 arg2 harg2 arg3 harg3 arg4 harg4 arg5 harg5 x1 x2 x3 x4).1)

/-- The same at grid point `t`: on the point's staging buffers and the four input blocks there. -/
def outsAt (c : Dev nD) (t : Fin cfg0.N) : Vec F S512 .f32 :=
  out c (grid0.coords t) (ms0 t) (hs0 t) (ms1 t) (hs1 t) (ms2 t) (hs2 t) (ms3 t) (hs3 t) (ms4 t) (hs4 t) (iblk m c 0 t) (iblk m c 1 t) (iblk m c 2 t) (iblk m c 3 t)

/-! ## The pipeline's proof data

The row matrix reaches the kernel through two windows, a 512-row tile that moves with the grid and the whole
matrix kept resident, so the two windows read ONE array: each holds half of it, which is enough to read. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q w := match w with
    | ⟨0, _⟩ => (rest fullShare 0).left
    | ⟨1, _⟩ => rest fullShare 1
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outsAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The body at any point: the four input buffers hold their blocks, so the run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outsAt
  unfold out
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrame.lean ====
import proofs.«178583_j7559142441509_2_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.LibShareChain (rest pointsTo_rest_step)
open Idealize.ShloMosaic.Pipeline (arrRef arrBufs unscopedRestP unscopedRest restRefsP restRefs Prefetch chain)

variable (m : (ℓ : Loc nD τ sig) → Buf (Elt F) ℓ) (ρ : Dev nD → PrngReg)

/-! ## The call's arrays, window by window

Five windows on four arrays: the rounded row matrix (twice), the id column, the id row, the result. -/

theorem share0 (c : Dev nD) : (dats m 0 c).share 0 = (rest fullShare 0).left := rfl
theorem share1 (c : Dev nD) : (dats m 0 c).share 1 = rest fullShare 1 := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The proof data's arrays, each whole, at its window's share. -/
theorem arrays_eq (c : Dev nD) (Fa : (w : Fin cfg0.W) → Buf (Elt F) ((cfg0.win w).arr.view.loc (c.tc : Thread nD τ))) :
    ((dats m 0 c).arrays Fa : sProp 𝕄)
      = iprop((((c.tc : Thread nD τ).loc (arrRef spec0 0)) ↦{(rest fullShare 0).left} Fa 0)
          ∗ (((c.tc : Thread nD τ).loc (arrRef spec0 1)) ↦{rest fullShare 1} Fa 1)
          ∗ (((c.tc : Thread nD τ).loc (arrRef spec0 2)) ↦{fullShare} Fa 2)
          ∗ (((c.tc : Thread nD τ).loc (arrRef spec0 3)) ↦{fullShare} Fa 3)
          ∗ (((c.tc : Thread nD τ).loc (arrRef spec0 4)) ↦{fullShare} Fa 4)) := by
  unfold Dat.arrays
  rw [bigSep_W0, (arr_whole0 0).set_eq_univ, (arr_whole0 2).set_eq_univ, (arr_whole0 3).set_eq_univ,
    (arr_whole0 4).set_eq_univ, share0, share1, share2, share3, share4]

/-- The four distinct buffers behind the arrays, each whole at the full share. -/
theorem arrBufs_eq (c : Dev nD) (Vv : (b : Ref sig .tc) → Buf (Elt F) ((c.tc : Thread nD τ).loc b)) :
    (arrBufs spec0 c Vv : sProp 𝕄)
      = iprop((((c.tc : Thread nD τ).loc main_v0) ↦{fullShare} Vv main_v0) ∗ (((c.tc : Thread nD τ).loc main_v1) ↦{fullShare} Vv main_v1)
          ∗ (((c.tc : Thread nD τ).loc main_v2) ↦{fullShare} Vv main_v2) ∗ (((c.tc : Thread nD τ).loc main_v3) ↦{fullShare} Vv main_v3)) := by
  unfold arrBufs
  exact bigSep_eq_bigSepL_of_eq [main_v0, main_v1, main_v2, main_v3] (by decide) (by decide) _

/-- At the call's entry: the four buffers behind the arrays, each whole, make the five windows' arrays, the row
    matrix's buffer dealt in halves to its two readers. -/
theorem hsplit (c : Dev nD) : (arrBufs spec0 c (V m c) : sProp 𝕄) ⊢ (dats m 0 c).arrays ((dats m 0 c).arrAt · 0) := by
  rw [arrays_eq, arrBufs_eq]
  iintro ⟨H0, H1, H2, H3⟩
  ihave Hs := (pointsTo_rest_step Finset.univ (V m c main_v0) fullShare 0) $$ [H0]
  · iexact H0
  icases Hs with ⟨Ha, Hb⟩
  isplitl [Ha]; · iexact Ha
  isplitl [Hb]; · iexact Hb
  isplitl [H1]; · iexact H1
  isplitl [H2]; · iexact H2
  iexact H3

/-! ## The two lines after the call

A zero, then the sum of the call's 8192 results from it. They read the result array and write two buffers the
call never touches. -/

/-- A core's buffer contents when the call returns: the result array as the sixteen write-backs left it, every
    other buffer as the call found it. -/
def Wt (c : Dev nD) : Valuation τ sig (Elt F) :=
  Function.update (V0 m c) (Proc.devRef .tc main_v3) ((dats m 0 c).arrAt 4 cfg0.N)

/-- What each buffer holds at the end of the program. -/
def AT (c : Dev nD) (b : Ref sig .tc) : Buf (Elt F) ((c.tc : Thread nD τ).loc b) :=
  StableHlo.after (List.flatten [hostOps1]) (Wt m c) (Proc.devRef .tc b)

theorem Wt_v3 (c : Dev nD) : Wt m c (Proc.devRef .tc main_v3) = (dats m 0 c).arrAt 4 cfg0.N := by
  unfold Wt; exact Function.update_self _ _ _
theorem Wt_of_ne (c : Dev nD) (b : Ref sig .tc) (h : b ≠ main_v3) : Wt m c (Proc.devRef .tc b) = V m c b := by
  unfold Wt; exact Function.update_of_ne (StableHlo.devRef_ne_of_ne h) _ _

/-- The three buffers the two lines touch. -/
def tailSet : Finset (DevRef τ sig) := {Proc.devRef .tc main_v3, Proc.devRef .tc main_cst, Proc.devRef .tc main_v4}

theorem held_tail (c : Dev nD) (W : Valuation τ sig (Elt F)) :
    (StableHlo.held (c.tc : Thread nD τ) tailSet W : sProp 𝕄)
      = iprop((((c.tc : Thread nD τ).loc main_v3) ↦{fullShare} W (Proc.devRef .tc main_v3))
          ∗ (((c.tc : Thread nD τ).loc main_cst) ↦{fullShare} W (Proc.devRef .tc main_cst))
          ∗ (((c.tc : Thread nD τ).loc main_v4) ↦{fullShare} W (Proc.devRef .tc main_v4))) := by
  unfold StableHlo.held tailSet
  rw [bigSep_eq_bigSepL_of_eq [Proc.devRef .tc main_v3, Proc.devRef .tc main_cst, Proc.devRef .tc main_v4] (by decide) (by decide)]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl
  · rw [StableHlo.nullary_bufs]; unfold tailSet; decide
  · rw [StableHlo.binary_bufs]; unfold tailSet; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Neither line writes the result array: it is still what the call left. -/
theorem AT_v3 (c : Dev nD) : AT m c main_v3 = (dats m 0 c).arrAt 4 cfg0.N := by
  unfold AT
  rw [StableHlo.after_of_forall_not_mem _ _ ?_, Wt_v3]
  intro op hop
  simp only [List.flatten_cons, List.flatten_nil, List.append_nil, hostOps1, List.mem_cons, List.mem_nil_iff, or_false] at hop
  rcases hop with rfl | rfl <;> simp only [StableHlo.nullary_writes, StableHlo.binary_writes, Finset.mem_singleton] <;>
    exact StableHlo.devRef_ne_of_ne (by decide)

/-- A buffer the two lines do not write, other than the result array, ends as the call found it. -/
theorem AT_of_ne (c : Dev nD) (b : Ref sig .tc) (h3 : b ≠ main_v3) (hc : b ≠ main_cst) (h4 : b ≠ main_v4) : AT m c b = V m c b := by
  unfold AT
  rw [StableHlo.after_of_forall_not_mem _ _ ?_, Wt_of_ne m c b h3]
  intro op hop
  simp only [List.flatten_cons, List.flatten_nil, List.append_nil, hostOps1, List.mem_cons, List.mem_nil_iff, or_false] at hop
  rcases hop with rfl | rfl <;> simp only [StableHlo.nullary_writes, StableHlo.binary_writes, Finset.mem_singleton]
  · exact StableHlo.devRef_ne_of_ne hc
  · exact StableHlo.devRef_ne_of_ne h4

/-- The three lines before the call write neither argument: the call finds them as launched. -/
theorem V_of_ne (c : Dev nD) (b : Ref sig .tc) (h0 : b ≠ main_v0) (h1 : b ≠ main_v1) (h2 : b ≠ main_v2) :
    V m c b = m ((c.tc : Thread nD τ).loc b) := by
  show StableHlo.after (List.flatten [hostOps0]) (fun b => m (c, b)) (Proc.devRef .tc b) = _
  rw [StableHlo.after_of_forall_not_mem _ _ ?_]
  intro op hop
  simp only [List.flatten_cons, List.flatten_nil, List.append_nil, hostOps0, List.mem_cons, List.mem_nil_iff, or_false] at hop
  rcases hop with rfl | rfl | rfl <;> simp only [StableHlo.unary_writes, StableHlo.reshape_writes, Finset.mem_singleton]
  · exact StableHlo.devRef_ne_of_ne h0
  · exact StableHlo.devRef_ne_of_ne h1
  · exact StableHlo.devRef_ne_of_ne h2

set_option backward.isDefEq.respectTransparency.types false in
/-- The two lines, run from the call's exit: they take the result array and the two buffers they write out of
    what the exit holds, run, and everything is handed back, the two written buffers at their new contents. -/
theorem tail_lines (c : Dev nD) (Q' : PUnit → sProp 𝕄) :
    iprop((iprop((dats m 0 c).arrays ((dats m 0 c).arrAt · cfg0.N) ∗ unscopedRestP Prefetch.none spec0 c (AT m c)) -∗ Q' ⟨⟩)
        ∗ boundary (c.tc : Thread nD τ) ∗ (dats m 0 c).arrays ((dats m 0 c).arrAt · cfg0.N) ∗ unscopedRestP Prefetch.none spec0 c (V m c))
      ⊢ wp frame (wpE (defs (F := F)) (Variants.lift Variants.none) (c.tc : Thread nD τ) none) Set.univ (chain [StableHlo.seq hostOps1]) Q' := by
  rw [arrays_eq, Pipeline.unscopedRestP_none, Pipeline.unscopedRestP_none, unscopedRest0_eq, unscopedRest0_eq,
    AT_of_ne m c main_arg0 (by decide) (by decide) (by decide), AT_of_ne m c main_arg1 (by decide) (by decide) (by decide)]
  have h := Pipeline.wp_seqs_then (Ix := Unit) (Name := ℕ) (U := UR sig nD τ) (Lvl := ℕ) (pcfgs (F := F)) defs₀ Variants.none c tailSet [] [hostOps1]
    tail_sub tail_fresh (Wt m c) (K := Q')
  have e3 := AT_v3 m c
  unfold AT at e3
  rw [held_tail, held_tail, e3, Wt_v3, Wt_of_ne m c main_cst (by decide), Wt_of_ne m c main_v4 (by decide)] at h
  iintro ⟨Hk, Hb, ⟨A0, A1, A2, A3, A4⟩, ⟨Z0, Z1, Zc, Z4⟩⟩
  ihave Hw := (h) $$ [Hb A4 Zc Z4]
  · isplitl [Hb]; · iexact Hb
    isplitl [A4]; · iexact A4
    isplitl [Zc]; · iexact Zc
    iexact Z4
  iapply Hw
  iintro ⟨Hb, B3, Bc, B4⟩
  rw [Pipeline.chain_nil, wp_pure]
  imodintro
  iapply Hk
  isplitl [A0 A1 A2 A3 B3]
  · isplitl [A0]; · iexact A0
    isplitl [A1]; · iexact A1
    isplitl [A2]; · iexact A2
    isplitl [A3]; · iexact A3
    iexact B3
  isplitl [Z0]; · iexact Z0
  isplitl [Z1]; · iexact Z1
  isplitl [Bc]; · iexact Bc
  iexact B4

/-! ## The launch -/

/-- No prefetched table: one admissible contents per pipeline. -/
abbrev adm : (p : Fin 1) → (pcfgs (F := F) p).Adm := fun p => (cfgs p).toPCfg_adm

set_option backward.isDefEq.respectTransparency.types false in
/-- From any memory with zero counters every weakly fair execution of the program on the TensorCores terminates,
    and in every final state each of the call's arrays is at what the write-backs computed from the proof data and
    every other unscoped buffer at what the two later lines leave. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ restRefsP sig Prefetch.none spec0, r.2.mem ((c.tc : Thread nD τ).loc b) = AT m c b) := by
  classical
  exact Pipeline.θ_run_region_pf_tail (pcfgs (F := F)) adm (dats m) () cellOf_inj (0 : Fin 1) winFacts₀0
    (Pipeline.OwnSemFacts.none spec0) (Pipeline.PreFacts.none _) emb₁ defs₀ Variants.none m ρ main
    (fun _ => chain ([hostOps1].map StableHlo.seq)) (fun c => (body_obligation m c).loose)
    block_pos0 arr_whole0 stage_whole0 (fun _ _ => rfl)
    (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (AT m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_lines m c Q')
    (QY := fun c s => ∀ b ∈ restRefsP sig Prefetch.none spec0, s.mem ((c.tc : Thread nD τ).loc b) = AT m c b)
    (hY := fun c s' => by
      iintro ⟨-, HU, HSI⟩
      unfold unscopedRestP
      imodintro
      iapply (pointsTo_read_all (restRefsP sig Prefetch.none spec0) (fun b => (c.tc : Thread nD τ).loc b) (AT m c) s')
      isplitl [HU] <;> iassumption)
    (hQ := fun s h c => ⟨(h c).1, (h c).2.2⟩)

/-- THE FRAME: the program runs to its end and both argument arrays end as launched — neither is an array of the
    call, and no host line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide)).trans ((AT_of_ne m c main_arg0 (by decide) (by decide) (by decide)).trans
        (V_of_ne m c main_arg0 (by decide) (by decide) (by decide))),
     ((h c).2 main_arg1 (by decide)).trans ((AT_of_ne m c main_arg1 (by decide) (by decide) (by decide)).trans
        (V_of_ne m c main_arg1 (by decide) (by decide) (by decide)))⟩) (run_main m ρ)

end Cert.Kernel.Hand

end
-- ==== Proof.KIBody.lean ====
import proofs.«178583_j7559142441509_2_alg».proof.Proof.Gen.KernelIdeal.Launch
import proofs.«178583_j7559142441509_2_alg».proof.Proof.Gen.KernelIdeal.Skeleton
import proofs.«178583_j7559142441509_2_alg».proof.Proof.Gen.KernelIdeal.Loops
import proofs.«178583_j7559142441509_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The kernel body on any whole staging buffers

One grid step reads its row tile and its tile of row ids whole, walks the eight column chunks of the resident
operands keeping the running pair (largest masked score, smallest masked score) in registers, and stores the 512
costs into the output buffer with one whole-buffer store. The four input buffers are left as found. -/

set_option maxHeartbeats 1000000 in
/-- What the body's one store leaves in the output buffer, as a list of pieces, with the proof that on whole
    staging buffers — the inputs at their contents, the output at anything — the body runs to the continuation
    holding the inputs as they were and the output with those pieces written. -/
noncomputable def kernelRun (c : Dev nD) (i : grid0.Coords) (arg1 : Memref sig .tc .vmem S512x128 .bf16) (harg1 : arg1.IsWhole) (arg2 : Memref sig .tc .vmem S8192x128 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512 .f32) (harg5 : arg5.IsWhole)
    (x1 : Vec F S512x128 .bf16) (x2 : Vec F S8192x128 .bf16) (x3 : Vec F S512x1 .i32) (x4 : Vec F S1x8192 .i32) :
    { L5 : List (View.Piece (Elt F) S512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4
                ∗ (∃ f, arg5.view.loc (c : Thread nD τ) ↦[arg5.view.set]{fullShare} arg5.view.writes (Elt F) f L5)) -∗ K ⟨⟩))
          ⊢ wp frame (wpE (defs₀ (F := F)) Variants.none c none) E (cc0__triplet_kernel i arg1 harg1 arg2 harg2 arg3 harg3 arg4 harg4 arg5 harg5) K } := by
  refine ⟨?_, fun E K => ?run⟩
  case run =>
    simp only [cc0__triplet_kernel_eq_skeleton]; unfold cc0__triplet_kernel_skel
    unfold owns
    iintro ⟨⟨%f1, %hf1, H1⟩, ⟨%f2, %hf2, H2⟩, ⟨%f3, %hf3, H3⟩, ⟨%f4, %hf4, H4⟩, ⟨%d5, %f5, -, H5⟩, Hk⟩
    obtain rfl := harg1.eq_unread hf1
    obtain rfl := harg2.eq_unread hf2
    obtain rfl := harg3.eq_unread hf3
    obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

end Cert.KernelIdeal.Hand

end
-- ==== Proof.KIKit.lean ====
import proofs.«178583_j7559142441509_2_alg».proof.Proof.Gen.KernelIdeal.Launch
import proofs.«178583_j7559142441509_2_alg».proof.Proof.Gen.KernelIdeal.Skeleton
import proofs.«178583_j7559142441509_2_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one kernel call

Three host lines come first (the row matrix rounded to the kernel's operand format, the id vector stood up as a
column and as a row), then the call, then two more (a zero, and the sum of the call's 8192 results). -/

/-- A core's buffer contents when the call is entered: the launch contents after the three lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program reduces to the call continued by the two later lines, entered at the contents after the three
    earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at grid point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each window's current staging buffer at point `t`, as the pipeline passes it to the body, and its wholeness. -/
abbrev ms0 (t : Fin cfg0.N) : Memref sig .tc .vmem S512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512 .f32 := win0_4.stage (cfg0.slots t 4)
abbrev hs4 (t : Fin cfg0.N) : (ms4 t).IsWhole := hstage0_4 ((cfg0.slots t 4).cast nbuf0_4)

/-- One staging buffer of the output window, through which its contents are stated (the choice does not matter:
    a covering list of pieces reads back the same through any whole buffer). -/
abbrev VO : View sig .tc .vmem S512 .f32 := (Memref.whole cc0_stg4_0 : Memref sig .tc .vmem S512 .f32).view

end Cert.KernelIdeal.Hand

end
-- ==== Proof.KIData.lean ====
import proofs.«178583_j7559142441509_2_alg».proof.Proof.KIBody
import proofs.«178583_j7559142441509_2_alg».proof.Proof.KIKit
import proofs.«178583_j7559142441509_2_alg».proof.Proof.LibShareChain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.LibShareChain (rest)

variable (m : (ℓ : Loc nD τ sig) → Buf (Elt F) ℓ) (ρ : Dev nD → PrngReg)

/-! ## What the output buffer holds after a grid step -/

/-- The body's one store covers the output buffer: it writes all 512 entries at once. -/
theorem cover (c : Dev nD) (i : grid0.Coords) (arg1 : Memref sig .tc .vmem S512x128 .bf16) (harg1 : arg1.IsWhole) (arg2 : Memref sig .tc .vmem S8192x128 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512 .f32) (harg5 : arg5.IsWhole)
    (x1 : Vec F S512x128 .bf16) (x2 : Vec F S8192x128 .bf16) (x3 : Vec F S512x1 .i32) (x4 : Vec F S1x8192 .i32) (y : S512.Idx) :
    ∃ pc ∈ (kernelRun c i arg1 harg1 arg2 harg2 arg3 harg3 arg4 harg4 arg5 harg5 x1 x2 x3 x4).1, y ∈ pc.1.set :=
  View.cover_of_tiledL (kernelRun c i arg1 harg1 arg2 harg2 arg3 harg3 arg4 harg4 arg5 harg5 x1 x2 x3 x4).1 S512.size (by sl_kernel_rfl) y

/-- What the run leaves in the output's staging buffer: its pieces read back over anything. -/
def out (c : Dev nD) (i : grid0.Coords) (arg1 : Memref sig .tc .vmem S512x128 .bf16) (harg1 : arg1.IsWhole) (arg2 : Memref sig .tc .vmem S8192x128 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512 .f32) (harg5 : arg5.IsWhole)
    (x1 : Vec F S512x128 .bf16) (x2 : Vec F S8192x128 .bf16) (x3 : Vec F S512x1 .i32) (x4 : Vec F S1x8192 .i32) : Vec F S512 .f32 :=
  VO.read (Elt F) (VO.writes (Elt F) VO.junk (kernelRun c i arg1 harg1 arg2 harg2 arg3 harg3 arg4 harg4 arg5 harg5 x1 x2 x3 x4).1)

/-- The same at grid point `t`: on the point's staging buffers and the four input blocks there. -/
def outsAt (c : Dev nD) (t : Fin cfg0.N) : Vec F S512 .f32 :=
  out c (grid0.coords t) (ms0 t) (hs0 t) (ms1 t) (hs1 t) (ms2 t) (hs2 t) (ms3 t) (hs3 t) (ms4 t) (hs4 t) (iblk m c 0 t) (iblk m c 1 t) (iblk m c 2 t) (iblk m c 3 t)

/-! ## The pipeline's proof data

The row matrix reaches the kernel through two windows, a 512-row tile that moves with the grid and the whole
matrix kept resident, so the two windows read ONE array: each holds half of it, which is enough to read. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt m c t
  Φ _ := Pipeline.ΦA spec0 c
  q w := match w with
    | ⟨0, _⟩ => (rest fullShare 0).left
    | ⟨1, _⟩ => rest fullShare 1
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outsAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

/-- The body at any point: the four input buffers hold their blocks, so the run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  unfold outsAt
  unfold out
  iintro ⟨HΦ, Ho, ⟨%d0, H0⟩, ⟨%d1, H1⟩, ⟨%d2, H2⟩, ⟨%d3, H3⟩, ⟨%d4, H4⟩⟩
  iapply ((kernelRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIFrame.lean ====
import proofs.«178583_j7559142441509_2_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.LibShareChain (rest pointsTo_rest_step)
open Idealize.ShloMosaic.Pipeline (arrRef arrBufs unscopedRestP unscopedRest restRefsP restRefs Prefetch chain)

variable (m : (ℓ : Loc nD τ sig) → Buf (Elt F) ℓ) (ρ : Dev nD → PrngReg)

/-! ## The call's arrays, window by window

Five windows on four arrays: the rounded row matrix (twice), the id column, the id row, the result. -/

theorem share0 (c : Dev nD) : (dats m 0 c).share 0 = (rest fullShare 0).left := rfl
theorem share1 (c : Dev nD) : (dats m 0 c).share 1 = rest fullShare 1 := rfl
theorem share2 (c : Dev nD) : (dats m 0 c).share 2 = fullShare := rfl
theorem share3 (c : Dev nD) : (dats m 0 c).share 3 = fullShare := rfl
theorem share4 (c : Dev nD) : (dats m 0 c).share 4 = fullShare := rfl

/-- The proof data's arrays, each whole, at its window's share. -/
theorem arrays_eq (c : Dev nD) (Fa : (w : Fin cfg0.W) → Buf (Elt F) ((cfg0.win w).arr.view.loc (c.tc : Thread nD τ))) :
    ((dats m 0 c).arrays Fa : sProp 𝕄)
      = iprop((((c.tc : Thread nD τ).loc (arrRef spec0 0)) ↦{(rest fullShare 0).left} Fa 0)
          ∗ (((c.tc : Thread nD τ).loc (arrRef spec0 1)) ↦{rest fullShare 1} Fa 1)
          ∗ (((c.tc : Thread nD τ).loc (arrRef spec0 2)) ↦{fullShare} Fa 2)
          ∗ (((c.tc : Thread nD τ).loc (arrRef spec0 3)) ↦{fullShare} Fa 3)
          ∗ (((c.tc : Thread nD τ).loc (arrRef spec0 4)) ↦{fullShare} Fa 4)) := by
  unfold Dat.arrays
  rw [bigSep_W0, (arr_whole0 0).set_eq_univ, (arr_whole0 2).set_eq_univ, (arr_whole0 3).set_eq_univ,
    (arr_whole0 4).set_eq_univ, share0, share1, share2, share3, share4]

/-- The four distinct buffers behind the arrays, each whole at the full share. -/
theorem arrBufs_eq (c : Dev nD) (Vv : (b : Ref sig .tc) → Buf (Elt F) ((c.tc : Thread nD τ).loc b)) :
    (arrBufs spec0 c Vv : sProp 𝕄)
      = iprop((((c.tc : Thread nD τ).loc main_v0) ↦{fullShare} Vv main_v0) ∗ (((c.tc : Thread nD τ).loc main_v1) ↦{fullShare} Vv main_v1)
          ∗ (((c.tc : Thread nD τ).loc main_v2) ↦{fullShare} Vv main_v2) ∗ (((c.tc : Thread nD τ).loc main_v3) ↦{fullShare} Vv main_v3)) := by
  unfold arrBufs
  exact bigSep_eq_bigSepL_of_eq [main_v0, main_v1, main_v2, main_v3] (by decide) (by decide) _

/-- At the call's entry: the four buffers behind the arrays, each whole, make the five windows' arrays, the row
    matrix's buffer dealt in halves to its two readers. -/
theorem hsplit (c : Dev nD) : (arrBufs spec0 c (V m c) : sProp 𝕄) ⊢ (dats m 0 c).arrays ((dats m 0 c).arrAt · 0) := by
  rw [arrays_eq, arrBufs_eq]
  iintro ⟨H0, H1, H2, H3⟩
  ihave Hs := (pointsTo_rest_step Finset.univ (V m c main_v0) fullShare 0) $$ [H0]
  · iexact H0
  icases Hs with ⟨Ha, Hb⟩
  isplitl [Ha]; · iexact Ha
  isplitl [Hb]; · iexact Hb
  isplitl [H1]; · iexact H1
  isplitl [H2]; · iexact H2
  iexact H3

/-! ## The two lines after the call

A zero, then the sum of the call's 8192 results from it. They read the result array and write two buffers the
call never touches. -/

/-- A core's buffer contents when the call returns: the result array as the sixteen write-backs left it, every
    other buffer as the call found it. -/
def Wt (c : Dev nD) : Valuation τ sig (Elt F) :=
  Function.update (V0 m c) (Proc.devRef .tc main_v3) ((dats m 0 c).arrAt 4 cfg0.N)

/-- What each buffer holds at the end of the program. -/
def AT (c : Dev nD) (b : Ref sig .tc) : Buf (Elt F) ((c.tc : Thread nD τ).loc b) :=
  StableHlo.after (List.flatten [hostOps1]) (Wt m c) (Proc.devRef .tc b)

theorem Wt_v3 (c : Dev nD) : Wt m c (Proc.devRef .tc main_v3) = (dats m 0 c).arrAt 4 cfg0.N := by
  unfold Wt; exact Function.update_self _ _ _
theorem Wt_of_ne (c : Dev nD) (b : Ref sig .tc) (h : b ≠ main_v3) : Wt m c (Proc.devRef .tc b) = V m c b := by
  unfold Wt; exact Function.update_of_ne (StableHlo.devRef_ne_of_ne h) _ _

/-- The three buffers the two lines touch. -/
def tailSet : Finset (DevRef τ sig) := {Proc.devRef .tc main_v3, Proc.devRef .tc main_cst, Proc.devRef .tc main_v4}

theorem held_tail (c : Dev nD) (W : Valuation τ sig (Elt F)) :
    (StableHlo.held (c.tc : Thread nD τ) tailSet W : sProp 𝕄)
      = iprop((((c.tc : Thread nD τ).loc main_v3) ↦{fullShare} W (Proc.devRef .tc main_v3))
          ∗ (((c.tc : Thread nD τ).loc main_cst) ↦{fullShare} W (Proc.devRef .tc main_cst))
          ∗ (((c.tc : Thread nD τ).loc main_v4) ↦{fullShare} W (Proc.devRef .tc main_v4))) := by
  unfold StableHlo.held tailSet
  rw [bigSep_eq_bigSepL_of_eq [Proc.devRef .tc main_v3, Proc.devRef .tc main_cst, Proc.devRef .tc main_v4] (by decide) (by decide)]
  rfl

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl
  · rw [StableHlo.nullary_bufs]; unfold tailSet; decide
  · rw [StableHlo.binary_bufs]; unfold tailSet; decide

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- Neither line writes the result array: it is still what the call left. -/
theorem AT_v3 (c : Dev nD) : AT m c main_v3 = (dats m 0 c).arrAt 4 cfg0.N := by
  unfold AT
  rw [StableHlo.after_of_forall_not_mem _ _ ?_, Wt_v3]
  intro op hop
  simp only [List.flatten_cons, List.flatten_nil, List.append_nil, hostOps1, List.mem_cons, List.mem_nil_iff, or_false] at hop
  rcases hop with rfl | rfl <;> simp only [StableHlo.nullary_writes, StableHlo.binary_writes, Finset.mem_singleton] <;>
    exact StableHlo.devRef_ne_of_ne (by decide)

/-- A buffer the two lines do not write, other than the result array, ends as the call found it. -/
theorem AT_of_ne (c : Dev nD) (b : Ref sig .tc) (h3 : b ≠ main_v3) (hc : b ≠ main_cst) (h4 : b ≠ main_v4) : AT m c b = V m c b := by
  unfold AT
  rw [StableHlo.after_of_forall_not_mem _ _ ?_, Wt_of_ne m c b h3]
  intro op hop
  simp only [List.flatten_cons, List.flatten_nil, List.append_nil, hostOps1, List.mem_cons, List.mem_nil_iff, or_false] at hop
  rcases hop with rfl | rfl <;> simp only [StableHlo.nullary_writes, StableHlo.binary_writes, Finset.mem_singleton]
  · exact StableHlo.devRef_ne_of_ne hc
  · exact StableHlo.devRef_ne_of_ne h4

/-- The three lines before the call write neither argument: the call finds them as launched. -/
theorem V_of_ne (c : Dev nD) (b : Ref sig .tc) (h0 : b ≠ main_v0) (h1 : b ≠ main_v1) (h2 : b ≠ main_v2) :
    V m c b = m ((c.tc : Thread nD τ).loc b) := by
  show StableHlo.after (List.flatten [hostOps0]) (fun b => m (c, b)) (Proc.devRef .tc b) = _
  rw [StableHlo.after_of_forall_not_mem _ _ ?_]
  intro op hop
  simp only [List.flatten_cons, List.flatten_nil, List.append_nil, hostOps0, List.mem_cons, List.mem_nil_iff, or_false] at hop
  rcases hop with rfl | rfl | rfl <;> simp only [StableHlo.unary_writes, StableHlo.reshape_writes, Finset.mem_singleton]
  · exact StableHlo.devRef_ne_of_ne h0
  · exact StableHlo.devRef_ne_of_ne h1
  · exact StableHlo.devRef_ne_of_ne h2

set_option backward.isDefEq.respectTransparency.types false in
/-- The two lines, run from the call's exit: they take the result array and the two buffers they write out of
    what the exit holds, run, and everything is handed back, the two written buffers at their new contents. -/
theorem tail_lines (c : Dev nD) (Q' : PUnit → sProp 𝕄) :
    iprop((iprop((dats m 0 c).arrays ((dats m 0 c).arrAt · cfg0.N) ∗ unscopedRestP Prefetch.none spec0 c (AT m c)) -∗ Q' ⟨⟩)
        ∗ boundary (c.tc : Thread nD τ) ∗ (dats m 0 c).arrays ((dats m 0 c).arrAt · cfg0.N) ∗ unscopedRestP Prefetch.none spec0 c (V m c))
      ⊢ wp frame (wpE (defs (F := F)) (Variants.lift Variants.none) (c.tc : Thread nD τ) none) Set.univ (chain [StableHlo.seq hostOps1]) Q' := by
  rw [arrays_eq, Pipeline.unscopedRestP_none, Pipeline.unscopedRestP_none, unscopedRest0_eq, unscopedRest0_eq,
    AT_of_ne m c main_arg0 (by decide) (by decide) (by decide), AT_of_ne m c main_arg1 (by decide) (by decide) (by decide)]
  have h := Pipeline.wp_seqs_then (Ix := Unit) (Name := ℕ) (U := UR sig nD τ) (Lvl := ℕ) (pcfgs (F := F)) defs₀ Variants.none c tailSet [] [hostOps1]
    tail_sub tail_fresh (Wt m c) (K := Q')
  have e3 := AT_v3 m c
  unfold AT at e3
  rw [held_tail, held_tail, e3, Wt_v3, Wt_of_ne m c main_cst (by decide), Wt_of_ne m c main_v4 (by decide)] at h
  iintro ⟨Hk, Hb, ⟨A0, A1, A2, A3, A4⟩, ⟨Z0, Z1, Zc, Z4⟩⟩
  ihave Hw := (h) $$ [Hb A4 Zc Z4]
  · isplitl [Hb]; · iexact Hb
    isplitl [A4]; · iexact A4
    isplitl [Zc]; · iexact Zc
    iexact Z4
  iapply Hw
  iintro ⟨Hb, B3, Bc, B4⟩
  rw [Pipeline.chain_nil, wp_pure]
  imodintro
  iapply Hk
  isplitl [A0 A1 A2 A3 B3]
  · isplitl [A0]; · iexact A0
    isplitl [A1]; · iexact A1
    isplitl [A2]; · iexact A2
    isplitl [A3]; · iexact A3
    iexact B3
  isplitl [Z0]; · iexact Z0
  isplitl [Z1]; · iexact Z1
  isplitl [Bc]; · iexact Bc
  iexact B4

/-! ## The launch -/

/-- No prefetched table: one admissible contents per pipeline. -/
abbrev adm : (p : Fin 1) → (pcfgs (F := F) p).Adm := fun p => (cfgs p).toPCfg_adm

set_option backward.isDefEq.respectTransparency.types false in
/-- From any memory with zero counters every weakly fair execution of the program on the TensorCores terminates,
    and in every final state each of the call's arrays is at what the write-backs computed from the proof data and
    every other unscoped buffer at what the two later lines leave. -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ ∀ b ∈ restRefsP sig Prefetch.none spec0, r.2.mem ((c.tc : Thread nD τ).loc b) = AT m c b) := by
  classical
  exact Pipeline.θ_run_region_pf_tail (pcfgs (F := F)) adm (dats m) () cellOf_inj (0 : Fin 1) winFacts₀0
    (Pipeline.OwnSemFacts.none spec0) (Pipeline.PreFacts.none _) emb₁ defs₀ Variants.none m ρ main
    (fun _ => chain ([hostOps1].map StableHlo.seq)) (fun c => (body_obligation m c).loose)
    block_pos0 arr_whole0 stage_whole0 (fun _ _ => rfl)
    (G := fun _ => iprop(emp))
    (u₀ := initOf (Pipeline.cells (Pipeline.pin (pcfgs (F := F)) adm) cellOf_inj) (Pipeline.launchToks (Pipeline.pin (pcfgs (F := F)) adm) cellOf_inj))
    (hu₀ := by
      iintro Hu; imodintro
      isplitl [Hu]; · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (AT m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => tail_lines m c Q')
    (QY := fun c s => ∀ b ∈ restRefsP sig Prefetch.none spec0, s.mem ((c.tc : Thread nD τ).loc b) = AT m c b)
    (hY := fun c s' => by
      iintro ⟨-, HU, HSI⟩
      unfold unscopedRestP
      imodintro
      iapply (pointsTo_read_all (restRefsP sig Prefetch.none spec0) (fun b => (c.tc : Thread nD τ).loc b) (AT m c) s')
      isplitl [HU] <;> iassumption)
    (hQ := fun s h c => ⟨(h c).1, (h c).2.2⟩)

/-- THE FRAME: the program runs to its end and both argument arrays end as launched — neither is an array of the
    call, and no host line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (by decide)).trans ((AT_of_ne m c main_arg0 (by decide) (by decide) (by decide)).trans
        (V_of_ne m c main_arg0 (by decide) (by decide) (by decide))),
     ((h c).2 main_arg1 (by decide)).trans ((AT_of_ne m c main_arg1 (by decide) (by decide) (by decide)).trans
        (V_of_ne m c main_arg1 (by decide) (by decide) (by decide)))⟩) (run_main m ρ)

end Cert.KernelIdeal.Hand

end
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.LibFoldMin.lean ====
import Idealize.ShloMosaic.PureOps.Ideal.Laws

/-!
# Minima taken by folding, and the reals inside the extended reals

* A monotone map of a linear order goes through a minimum taken by folding `min` over a finite set from a start
  value: `g (fold min b f) = fold min (g b) (g ∘ f)`.  With `g = (· + c)` or `g = max · c` this moves an added
  constant or a clamp inside a row minimum.
* A float `minimumf` reduction over ONE axis, read at the ideal values, is the fold of `min` from the
  accumulator's value over that axis's coordinates (the companion of the library's statement for `maximumf`).
* The coercion of the reals into the extended reals goes through finite sums and through `max`.
-/

namespace Cert.LibFoldMin

open Idealize.ShloMosaic

/-- A monotone map of a linear order goes through a minimum taken by folding over a finite set. -/
theorem map_fold_min {α ι : Type*} [LinearOrder α] {g : α → α} (hg : Monotone g) (s : Finset ι) (b : α)
    (f : ι → α) : g (s.fold min b f) = s.fold min (g b) (fun i => g (f i)) := by
  classical
  induction s using Finset.induction_on with
  | empty => simp
  | insert a s ha ih => rw [Finset.fold_insert ha, Finset.fold_insert ha, hg.map_min, ih]

/-- A float `minimumf` reduction over one axis, at the ideal values: the fold of `min` from the accumulator's
    value over that axis's coordinates, the reduced index with the coordinate put back on the dropped axis. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The coercion of the reals goes through finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals goes through the maximum of two numbers. -/
theorem coe_max (a b : ℝ) : ((max a b : ℝ) : EReal) = max (a : EReal) (b : EReal) :=
  EReal.coe_strictMono.monotone.map_max

end Cert.LibFoldMin
-- ==== Proof.LibRowExtrema.lean ====
import Idealize.ShloMosaic.Lib.ValueIdx
import Idealize.ShloMosaic.PureOps.Ideal.Laws
import proofs.«178583_j7559142441509_2_alg».proof.Proof.LibFoldMin

/-!
# The largest and the smallest entry of each row, by their bounds

For an `[a, b]` array of extended reals, the maximum along axis 1 taken from a start value is, at row `p`, the
number whose upper bounds are exactly the upper bounds of the start value and of every entry `(p, q)`; the minimum is
the number whose lower bounds are the lower bounds of the start value and of every entry. Stated this way a row
maximum never has to be computed: two programs that reduce the same entries in different groupings are compared
through their bounds. Four readings: the vector unit's `multi_reduction` with a maximum or a minimum body, and the
host's one-operand reduce with the same bodies from a scalar start value.
-/

namespace Cert.LibRowExtrema

open Idealize.ShloMosaic Idealize.ShloMosaic.ValueIdx

variable {a b : ℕ} {φ : FTy}

/-- Row `p` with column `q` put back is the entry `(p, q)`. -/
theorem lift_row (h : (⟨2, ![a, b]⟩ : Shape).Reduces [1] ⟨1, ![a]⟩) (p : Fin a) (q : Fin b) :
    h.lift (ix1 p) q = ix2 p q := by
  funext c
  refine Fin.ext ?_
  match c with
  | ⟨0, _⟩ => rfl
  | ⟨1, _⟩ => rfl

/-- The vector unit's row maximum: its upper bounds are the start value's and every entry's. -/
theorem rowMax_le (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) (x : EReal) :
    multiReduction .maximumf [1] ⟨1, ![a]⟩ src acc h hφ hacc (ix1 p) ≤ x
      ↔ Ideal.ofBits φ acc ≤ x ∧ ∀ q : Fin b, src (ix2 p q) ≤ x := by
  rw [Ideal.multiReduction_maximumf_single src acc h hφ hacc (ix1 p), Finset.fold_max_le]
  refine and_congr Iff.rfl ⟨fun hq q => ?_, fun hq q _ => ?_⟩
  · rw [← lift_row h p q]; exact hq q (Finset.mem_univ _)
  · show src (h.lift (ix1 p) q) ≤ x
    rw [lift_row h p q]; exact hq q

/-- The vector unit's row minimum: its lower bounds are the start value's and every entry's. -/
theorem le_rowMin (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) (x : EReal) :
    x ≤ multiReduction .minimumf [1] ⟨1, ![a]⟩ src acc h hφ hacc (ix1 p)
      ↔ x ≤ Ideal.ofBits φ acc ∧ ∀ q : Fin b, x ≤ src (ix2 p q) := by
  rw [Cert.LibFoldMin.multiReduction_minimumf_single src acc h hφ hacc (ix1 p), Finset.le_fold_min]
  refine and_congr Iff.rfl ⟨fun hq q => ?_, fun hq q _ => ?_⟩
  · rw [← lift_row h p q]; exact hq q (Finset.mem_univ _)
  · show x ≤ src (h.lift (ix1 p) q)
    rw [lift_row h p q]; exact hq q

/-- The host's row maximum from a scalar start value. -/
theorem hostRowMax_le (src : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (x : EReal) :
    Host.reduce FloatOps.maximumf src init h' hu (ix1 p) ≤ x ↔ init ix0 ≤ x ∧ ∀ q : Fin b, src (ix2 p q) ≤ x := by
  rw [Host.reduce_eq_fold_single FloatOps.maximumf src init h' h hu (ix1 p), eq_ix0 (Shape.Idx.first hu)]
  show Finset.fold max (init ix0) (src ∘ h.lift (ix1 p)) Finset.univ ≤ x ↔ _
  rw [Finset.fold_max_le]
  refine and_congr Iff.rfl ⟨fun hq q => ?_, fun hq q _ => ?_⟩
  · rw [← lift_row h p q]; exact hq q (Finset.mem_univ _)
  · show src (h.lift (ix1 p) q) ≤ x
    rw [lift_row h p q]; exact hq q

/-- The host's row minimum from a scalar start value. -/
theorem le_hostRowMin (src : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (x : EReal) :
    x ≤ Host.reduce FloatOps.minimumf src init h' hu (ix1 p) ↔ x ≤ init ix0 ∧ ∀ q : Fin b, x ≤ src (ix2 p q) := by
  rw [Host.reduce_eq_fold_single FloatOps.minimumf src init h' h hu (ix1 p), eq_ix0 (Shape.Idx.first hu)]
  show x ≤ Finset.fold min (init ix0) (src ∘ h.lift (ix1 p)) Finset.univ ↔ _
  rw [Finset.le_fold_min]
  refine and_congr Iff.rfl ⟨fun hq q => ?_, fun hq q _ => ?_⟩
  · rw [← lift_row h p q]; exact hq q (Finset.mem_univ _)
  · show x ≤ src (h.lift (ix1 p) q)
    rw [lift_row h p q]; exact hq q

end Cert.LibRowExtrema
-- ==== Proof.LibMaskSelect.lean ====
import Idealize.ShloMosaic.PureOps.Ideal.Laws

/-!
# A select under an equality mask

A mask computed by comparing two words for equality is one bit. Selecting under it, under its exclusive-or with
true, or under its complement is a plain case distinction on whether the two words are equal.
-/

namespace Cert.LibMaskSelect

open Idealize.ShloMosaic

variable {α : Type} {w : ℕ}

/-- The mask "equal" is the bit one exactly where the two words are equal. -/
theorem cmpi_eq_one_iff (x y : BitVec w) : IntOp.cmpi .eq x y = 1 ↔ x = y := by
  show BitVec.ofBool (x == y) = 1#1 ↔ x = y
  by_cases h : x = y
  · subst h; simp
  · have hb : (x == y) = false := by simp [h]
    rw [hb]
    exact ⟨fun h1 => absurd h1 (by decide), fun h2 => absurd h2 h⟩

/-- On one bit, the exclusive-or with true is one exactly where the bit is not. -/
theorem xor_true_eq_one_iff : ∀ c : BitVec 1, IntOp.xori c 1#1 = 1 ↔ ¬ c = 1 := by decide

/-- On one bit, the complement is one exactly where the bit is not. -/
theorem not_eq_one_iff : ∀ c : BitVec 1, ~~~c = 1 ↔ ¬ c = 1 := by decide

/-- Under the mask "equal": the first value where the words are equal, else the second. -/
theorem select_eq (x y : BitVec w) (a b : α) :
    Scalar.select (IntOp.cmpi .eq x y) a b = if x = y then a else b := by
  unfold Scalar.select
  by_cases h : x = y
  · rw [if_pos ((cmpi_eq_one_iff x y).mpr h), if_pos h]
  · rw [if_neg ((cmpi_eq_one_iff x y).not.mpr h), if_neg h]

/-- Under the mask "equal" flipped by an exclusive-or with true: the SECOND value where the words are equal. -/
theorem select_xor_eq (x y : BitVec w) (a b : α) :
    Scalar.select (IntOp.xori (IntOp.cmpi .eq x y) 1#1) a b = if x = y then b else a := by
  unfold Scalar.select
  by_cases h : x = y
  · rw [if_neg ((xor_true_eq_one_iff _).not.mpr (not_not.mpr ((cmpi_eq_one_iff x y).mpr h))), if_pos h]
  · rw [if_pos ((xor_true_eq_one_iff _).mpr ((cmpi_eq_one_iff x y).not.mpr h)), if_neg h]

/-- Under the complement of the mask "equal": the same. -/
theorem select_not_eq (x y : BitVec w) (a b : α) :
    Scalar.select (~~~ (IntOp.cmpi .eq x y)) a b = if x = y then b else a := by
  unfold Scalar.select
  by_cases h : x = y
  · rw [if_neg ((not_eq_one_iff _).not.mpr (not_not.mpr ((cmpi_eq_one_iff x y).mpr h))), if_pos h]
  · rw [if_pos ((not_eq_one_iff _).mpr ((cmpi_eq_one_iff x y).not.mpr h)), if_neg h]

end Cert.LibMaskSelect
-- ==== Proof.KIPay.lean ====
import proofs.«178583_j7559142441509_2_alg».proof.Proof.Gen.KernelIdeal.Skeleton
import proofs.«178583_j7559142441509_2_alg».proof.Proof.LibDotRows
import proofs.«178583_j7559142441509_2_alg».proof.Proof.LibTileLayout
import proofs.«178583_j7559142441509_2_alg».proof.Proof.LibRowExtrema
import proofs.«178583_j7559142441509_2_alg».proof.Proof.LibMaskSelect
import Idealize.ShloMosaic.Lib.ValueLayout
import Idealize.ShloMosaic.Lib.Pipeline.Value

/-!
# The body's arithmetic, read at a row

One grid step handles 512 anchors. For anchor `r` of the tile and column `jj` of a 1024-column chunk the score is the
product of the anchor's row with the chunk's row `jj`. A column with the anchor's id counts as a positive, any
other as a negative; a column that does not count is replaced by a large finite number of the harmless sign. The
step keeps, per anchor, the largest negative score and the smallest positive score seen so far, and at the end
turns the pair into the anchor's cost.
-/

noncomputable section

namespace Cert.KernelIdeal.Pay

open Idealize.ShloMosaic Idealize.ShloMosaic.ValueIdx Cert.KernelIdeal Cert.KernelIdeal.Gen
open scoped BigOperators

/-- The fill of a column that is no negative. -/
abbrev negFill : EReal := Ideal.ofBits .f32 0xF149F2CA#32
/-- The fill of a column that is no positive. -/
abbrev posFill : EReal := Ideal.ofBits .f32 0x7149F2CA#32
/-- The margin. -/
abbrev margin : EReal := Ideal.ofBits .f32 0x3E4CCCCD#32

/-- The running pair starts at the two fills. -/
theorem pay1_apply (i : S512x1.Idx) : k0_pay1 (F := Ideal) i = negFill := rfl
theorem pay2_apply (i : S512x1.Idx) : k0_pay2 (F := Ideal) i = posFill := rfl

/-- The score of anchor `r` against column `jj` of the chunk: the product of their rows. -/
theorem pay3_apply (v0 : FVec Ideal S512x128 .bf16) (v20 : FVec Ideal S1024x128 .bf16) (r : Fin 512) (jj : Fin 1024) :
    k0_pay3 (F := Ideal) v0 v20 (ix2 r jj) = ∑ k : Fin 128, v0 (ix2 r k) * v20 (ix2 jj k) := by
  unfold k0_pay3
  simp only [shapeCast_self]
  exact Cert.LibDotRows.matmul_zero_apply _ ⟨rfl, rfl, rfl, rfl, rfl, rfl⟩ none v0 v20 r jj

/-- The positive mask at `(r, jj)`: the anchor's id against the column's. -/
theorem pay4_apply (v2 : Vec Ideal S512x1 .i32) (v23 : Vec Ideal S1x1024 .i32) (r : Fin 512) (jj : Fin 1024) :
    k0_pay4 (F := Ideal) v2 v23 (ix2 r jj) = IntOp.cmpi .eq (v2 (ix2 r (0 : Fin 1))) (v23 (ix2 (0 : Fin 1) jj)) := by
  unfold k0_pay4
  simp only [shapeCast_self]
  show IntOp.cmpi .eq (broadcastTo S512x1024 v2 _ (ix2 r jj)) (broadcastTo S512x1024 v23 _ (ix2 r jj)) = _
  rw [Cert.TileLayout.broadcastTo_a1_ab_apply, broadcastTo_1b_ab_apply]

/-- One chunk's step of the largest negative: its upper bounds are the running value's and those of every masked
    score of the chunk. -/
theorem pay5_le (v0 : FVec Ideal S512x128 .bf16) (v2 : Vec Ideal S512x1 .i32) (a7 : FVec Ideal S512x1 .f32)
    (v20 : FVec Ideal S1024x128 .bf16) (v23 : Vec Ideal S1x1024 .i32) (r : Fin 512) (x : EReal) :
    k0_pay5 (F := Ideal) v0 v2 a7 v20 v23 (ix2 r (0 : Fin 1)) ≤ x
      ↔ a7 (ix2 r (0 : Fin 1)) ≤ x
        ∧ ∀ jj : Fin 1024, (if v2 (ix2 r (0 : Fin 1)) = v23 (ix2 (0 : Fin 1) jj) then negFill
            else ∑ k : Fin 128, v0 (ix2 r k) * v20 (ix2 jj k)) ≤ x := by
  unfold k0_pay5
  dsimp only
  rw [maximumf_apply, max_le_iff, Cert.TileLayout.shapeCast_a_a1_apply]
  refine and_congr Iff.rfl ((Cert.LibRowExtrema.rowMax_le _ _ _ _ _ r x).trans ?_)
  have hbot : Ideal.ofBits .f32 0xFF800000#32 ≤ x := by
    have : Ideal.ofBits .f32 0xFF800000#32 = ⊥ := by simp [Ideal.ofBits, Ideal.ieee]
    rw [this]; exact bot_le
  simp only [hbot, true_and, select_apply, xori, constantI_apply, broadcast_apply, pay4_apply, pay3_apply,
    Cert.LibMaskSelect.select_xor_eq, Ideal.ofBits_def]

/-- One chunk's step of the smallest positive: its lower bounds are the running value's and those of every masked
    score of the chunk. -/
theorem le_pay6 (v0 : FVec Ideal S512x128 .bf16) (v2 : Vec Ideal S512x1 .i32) (a8 : FVec Ideal S512x1 .f32)
    (v20 : FVec Ideal S1024x128 .bf16) (v23 : Vec Ideal S1x1024 .i32) (r : Fin 512) (x : EReal) :
    x ≤ k0_pay6 (F := Ideal) v0 v2 a8 v20 v23 (ix2 r (0 : Fin 1))
      ↔ x ≤ a8 (ix2 r (0 : Fin 1))
        ∧ ∀ jj : Fin 1024, x ≤ (if v2 (ix2 r (0 : Fin 1)) = v23 (ix2 (0 : Fin 1) jj) then ∑ k : Fin 128, v0 (ix2 r k) * v20 (ix2 jj k)
            else posFill) := by
  unfold k0_pay6
  dsimp only
  rw [minimumf_apply, le_min_iff, Cert.TileLayout.shapeCast_a_a1_apply]
  refine and_congr Iff.rfl ((Cert.LibRowExtrema.le_rowMin _ _ _ _ _ r x).trans ?_)
  have htop : x ≤ Ideal.ofBits .f32 0x7F800000#32 := by
    have : Ideal.ofBits .f32 0x7F800000#32 = ⊤ := by simp [Ideal.ofBits, Ideal.ieee]
    rw [this]; exact le_top
  simp only [htop, true_and, select_apply, broadcast_apply, pay4_apply, pay3_apply,
    Cert.LibMaskSelect.select_eq, Ideal.ofBits_def]

/-- The cost of anchor `r` from the final pair: margin plus the hardest negative less the hardest positive clamped
    at zero from above, the whole clamped at zero from below. -/
theorem pay7_apply (v7_0 v7_1 : FVec Ideal S512x1 .f32) (r : Fin 512) :
    k0_pay7 (F := Ideal) v7_0 v7_1 (ix1 r)
      = max (margin + v7_0 (ix2 r (0 : Fin 1)) - min (v7_1 (ix2 r (0 : Fin 1))) 0) 0 := by
  unfold k0_pay7
  have hc : ∀ (x : (⟨2, ![512, 1]⟩ : Shape).Idx → EReal) (h : (⟨2, ![512, 1]⟩ : Shape).ShapeCasts ⟨1, ![512]⟩),
      shapeCast ⟨1, ![512]⟩ x h (ix1 r) = x (ix2 r (0 : Fin 1)) := fun x h =>
    shapeCast_apply x h _ _ (by
      rw [Shape.rowMajor_val_two, Shape.rowMajor_val_one]
      show r.val * 1 + 0 = r.val
      omega)
  rw [hc]
  simp only [maximumf_apply, minimumf_apply, subf_apply, addf_apply, broadcast_apply, Ideal.ofBits_def, Ideal.ofBits_zero_f32]

end Cert.KernelIdeal.Pay

end
-- ==== Proof.TripletOrder.lean ====
import Idealize.ShloMosaic.PureOps.Ideal.Laws

/-!
# Bounds of a hardest negative and a hardest positive

The hardest negative of an anchor is the largest masked score in its row, the hardest positive the smallest.
A largest or smallest element is pinned down by its bounds: two numbers with the same upper bounds are equal, and so
are two numbers with the same lower bounds. This file holds the order facts the comparison of the two programs rests on:

* a square, and a sum of squares, of extended reals is not negative;
* a largest element taken from a start value that the family itself attains does not depend on a smaller start;
* a smallest element, clamped at `z`, equals the smallest element of the family with one entry replaced by `z`,
  when that entry is at least `z` and the start value is at least `z`;
* a running largest (smallest) element kept over eight chunks of 1024 columns has the bounds of the largest
  (smallest) element over all 8192 columns.
-/

namespace Cert.TripletOrder

/-- The square of an extended real is not negative. -/
theorem zero_le_mul_self (x : EReal) : 0 ≤ x * x := by
  induction x using EReal.rec with
  | bot => simp
  | coe r => rw [← EReal.coe_mul]; exact EReal.coe_nonneg.mpr (mul_self_nonneg r)
  | top => simp

/-- A sum of squares is not negative. -/
theorem zero_le_sum_mul_self {ι : Type*} (s : Finset ι) (f : ι → EReal) : 0 ≤ ∑ k ∈ s, f k * f k :=
  Finset.sum_nonneg fun k _ => zero_le_mul_self (f k)

variable {α : Type*} [LinearOrder α]

/-- Two largest elements of one family, taken from the start values `lo` and `bot`, agree when `bot` is below
    everything and the family attains `lo`. -/
theorem largest_eq {ι : Type*} {A A' lo bot : α} {c : ι → α} (i : ι)
    (hA : ∀ x, A ≤ x ↔ lo ≤ x ∧ ∀ j, c j ≤ x) (hA' : ∀ x, A' ≤ x ↔ bot ≤ x ∧ ∀ j, c j ≤ x)
    (hbot : ∀ x, bot ≤ x) (hi : c i = lo) : A = A' :=
  eq_of_forall_ge_iff fun x => by
    rw [hA, hA']
    exact ⟨fun h => ⟨hbot x, h.2⟩, fun h => ⟨hi ▸ h.2 i, h.2⟩⟩

/-- The smallest element of `a` from the start value `hi`, clamped at `z`, is the smallest element from `top` of the
    family `b` that is `a` with its entry `i` replaced by `z`: that entry of `a` is at least `z`, so it never decides
    the clamped minimum, and neither does a start value that is at least `z`. -/
theorem smallest_clamped_eq {ι : Type*} {B B' hi top z : α} {a b : ι → α} (i : ι)
    (hB : ∀ x, x ≤ B ↔ x ≤ hi ∧ ∀ j, x ≤ a j) (hB' : ∀ x, x ≤ B' ↔ x ≤ top ∧ ∀ j, x ≤ b j)
    (htop : ∀ x, x ≤ top) (hne : ∀ j, j ≠ i → b j = a j) (hbi : b i = z) (hai : z ≤ a i) (hz : z ≤ hi) :
    min B z = B' :=
  eq_of_forall_le_iff fun x => by
    classical
    rw [le_min_iff, hB, hB']
    constructor
    · rintro ⟨⟨-, ha⟩, hxz⟩
      refine ⟨htop x, fun j => ?_⟩
      by_cases hj : j = i
      · subst hj; rw [hbi]; exact hxz
      · rw [hne j hj]; exact ha j
    · rintro ⟨-, hb⟩
      have hxz : x ≤ z := hbi ▸ hb i
      refine ⟨⟨hxz.trans hz, fun j => ?_⟩, hxz⟩
      by_cases hj : j = i
      · subst hj; exact hxz.trans hai
      · rw [← hne j hj]; exact hb j

/-- A running largest element over eight chunks of 1024 columns: if each step's upper bounds are the previous
    value's and the chunk's entries', the last value's upper bounds are the start's and all 8192 entries'. -/
theorem chunked_upper (lo : α) (c : Fin 8192 → α) (st : ℕ → α) (h0 : st 0 = lo)
    (hstep : ∀ n (hn : n < 8) (x : α), st (n + 1) ≤ x ↔ st n ≤ x ∧ ∀ jj : Fin 1024, c ⟨1024 * n + jj.val, by omega⟩ ≤ x)
    (x : α) : st 8 ≤ x ↔ lo ≤ x ∧ ∀ j, c j ≤ x := by
  have key : ∀ n, n ≤ 8 → (st n ≤ x ↔ lo ≤ x ∧ ∀ j : Fin 8192, j.val < 1024 * n → c j ≤ x) := by
    intro n
    induction n with
    | zero => intro _; rw [h0]; exact ⟨fun h => ⟨h, fun j hj => absurd hj (by omega)⟩, fun h => h.1⟩
    | succ n ih =>
      intro hn
      rw [hstep n (by omega) x, ih (by omega)]
      constructor
      · rintro ⟨⟨hlo, hlt⟩, hch⟩
        refine ⟨hlo, fun j hj => ?_⟩
        by_cases h : j.val < 1024 * n
        · exact hlt j h
        · have e : j = ⟨1024 * n + (⟨j.val - 1024 * n, by omega⟩ : Fin 1024).val, by omega⟩ := Fin.ext (by simp; omega)
          rw [e]; exact hch _
      · rintro ⟨hlo, hall⟩
        exact ⟨⟨hlo, fun j hj => hall j (by omega)⟩, fun jj => hall _ (by simp; omega)⟩
  rw [key 8 le_rfl]
  exact ⟨fun h => ⟨h.1, fun j => h.2 j (by omega)⟩, fun h => ⟨h.1, fun j _ => h.2 j⟩⟩

/-- The same for a running smallest element and lower bounds. -/
theorem chunked_lower (hi : α) (c : Fin 8192 → α) (st : ℕ → α) (h0 : st 0 = hi)
    (hstep : ∀ n (hn : n < 8) (x : α), x ≤ st (n + 1) ↔ x ≤ st n ∧ ∀ jj : Fin 1024, x ≤ c ⟨1024 * n + jj.val, by omega⟩)
    (x : α) : x ≤ st 8 ↔ x ≤ hi ∧ ∀ j, x ≤ c j := by
  have key : ∀ n, n ≤ 8 → (x ≤ st n ↔ x ≤ hi ∧ ∀ j : Fin 8192, j.val < 1024 * n → x ≤ c j) := by
    intro n
    induction n with
    | zero => intro _; rw [h0]; exact ⟨fun h => ⟨h, fun j hj => absurd hj (by omega)⟩, fun h => h.1⟩
    | succ n ih =>
      intro hn
      rw [hstep n (by omega) x, ih (by omega)]
      constructor
      · rintro ⟨⟨hlo, hlt⟩, hch⟩
        refine ⟨hlo, fun j hj => ?_⟩
        by_cases h : j.val < 1024 * n
        · exact hlt j h
        · have e : j = ⟨1024 * n + (⟨j.val - 1024 * n, by omega⟩ : Fin 1024).val, by omega⟩ := Fin.ext (by simp; omega)
          rw [e]; exact hch _
      · rintro ⟨hlo, hall⟩
        exact ⟨⟨hlo, fun j hj => hall j (by omega)⟩, fun jj => hall _ (by simp; omega)⟩
  rw [key 8 le_rfl]
  exact ⟨fun h => ⟨h.1, fun j => h.2 j (by omega)⟩, fun h => ⟨h.1, fun j _ => h.2 j⟩⟩

end Cert.TripletOrder
-- ==== Proof.KIStep.lean ====
import proofs.«178583_j7559142441509_2_alg».proof.Proof.KIFrame
import proofs.«178583_j7559142441509_2_alg».proof.Proof.KIPay
import proofs.«178583_j7559142441509_2_alg».proof.Proof.TripletOrder

set_option maxRecDepth 16384

/-!
# What one grid step leaves in the output buffer, anchor by anchor

A grid step walks the 8192 columns in eight chunks of 1024. Before chunk `n` it holds, per anchor, the largest
masked score among the negatives and the smallest among the positives of the columns below `1024 · n`. After the
eighth chunk these are the row's hardest negative and hardest positive, each started from its fill, and the cost is
read off them.
-/

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Pay
open scoped BigOperators

theorem hz1 : (![0] : Fin 1 → Nat) = fun _ => 0 := funext fun a => by fin_cases a; rfl
theorem hz2 : (![0, 0] : Fin 2 → Nat) = fun _ => 0 := funext fun a => by fin_cases a <;> rfl

/-- The walk has eight chunks. -/
theorem trips_eq : k0_t1_loop.trips = 8 := by decide

section Step

variable (c : Dev nD) (i : grid0.Coords) (arg1 : Memref sig .tc .vmem S512x128 .bf16) (harg1 : arg1.IsWhole) (arg2 : Memref sig .tc .vmem S8192x128 .bf16) (harg2 : arg2.IsWhole) (arg3 : Memref sig .tc .vmem S512x1 .i32) (harg3 : arg3.IsWhole) (arg4 : Memref sig .tc .vmem S1x8192 .i32) (harg4 : arg4.IsWhole) (arg5 : Memref sig .tc .vmem S512 .f32) (harg5 : arg5.IsWhole)
  (x1 : FVec Ideal S512x128 .bf16) (x2 : FVec Ideal S8192x128 .bf16) (x3 : Vec Ideal S512x1 .i32) (x4 : Vec Ideal S1x8192 .i32)

/-- Chunk `k` of the resident row matrix, as the body loads it. -/
def chunkRows (k : Fin k0_t1_loop.trips) : FVec Ideal S1024x128 .bf16 :=
  View.readAt (Elt Ideal) arg2.view (Rect.unit (s := S8192x128) (k0_off1 k) S1024x128.size (k0_off1_inb k)).toLoadRect (harg2.unread x2)

/-- Chunk `k` of the resident id row. -/
def chunkIds (k : Fin k0_t1_loop.trips) : Vec Ideal S1x1024 .i32 :=
  View.readAt (Elt Ideal) arg4.view (Rect.unit (s := S1x8192) (k0_off2 k) S1x1024.size (k0_off2_inb k)).toLoadRect (harg4.unread x4)

/-- The running pair before chunk `n`. -/
def carried (n : ℕ) : FVec Ideal S512x1 .f32 × FVec Ideal S512x1 .f32 :=
  st_k0_t1 (F := Ideal) Variants.none c none i arg1 harg1 arg2 harg2 arg3 harg3 arg4 harg4 arg5 harg5 x1 x3 (harg2.unread x2) (harg4.unread x4) (k0_pay1, k0_pay2) n

/-- The output buffer ends holding the cost read off the pair after the eighth chunk. -/
theorem out_eq : out (F := Ideal) c i arg1 harg1 arg2 harg2 arg3 harg3 arg4 harg4 arg5 harg5 x1 x2 x3 x4 = k0_pay7 (carried c i arg1 harg1 arg2 harg2 arg3 harg3 arg4 harg4 arg5 harg5 x1 x2 x3 x4 8).1 (carried c i arg1 harg1 arg2 harg2 arg3 harg3 arg4 harg4 arg5 harg5 x1 x2 x3 x4 8).2 := by
  unfold out
  rw [View.read_writes_eq_canon _ _ _ (cover c i arg1 harg1 arg2 harg2 arg3 harg3 arg4 harg4 arg5 harg5 x1 x2 x3 x4)]
  unfold kernelRun
  dsimp only
  rw [View.canon_unit_zero (S := S512) hz1]
  simp only [View.readAt_eq_ld, harg1.read_unread, harg3.read_unread, View.ld_unit_zero (S := S512x128) hz2, View.ld_unit_zero (S := S512x1) hz2]
  rfl

/-- One chunk's step of the pair. -/
theorem carried_succ (n : ℕ) (hn : n < k0_t1_loop.trips) :
    carried c i arg1 harg1 arg2 harg2 arg3 harg3 arg4 harg4 arg5 harg5 x1 x2 x3 x4 (n + 1)
      = (k0_pay5 x1 x3 (carried c i arg1 harg1 arg2 harg2 arg3 harg3 arg4 harg4 arg5 harg5 x1 x2 x3 x4 n).1 (chunkRows arg2 harg2 x2 ⟨n, hn⟩) (chunkIds arg4 harg4 x4 ⟨n, hn⟩),
         k0_pay6 x1 x3 (carried c i arg1 harg1 arg2 harg2 arg3 harg3 arg4 harg4 arg5 harg5 x1 x2 x3 x4 n).2 (chunkRows arg2 harg2 x2 ⟨n, hn⟩) (chunkIds arg4 harg4 x4 ⟨n, hn⟩)) := by
  unfold carried
  refine (st_k0_t1_succ (F := Ideal) Variants.none c none i arg1 harg1 arg2 harg2 arg3 harg3 arg4 harg4 arg5 harg5 x1 x3 (harg2.unread x2) (harg4.unread x4) (k0_pay1, k0_pay2) ⟨n, hn⟩).trans ?_
  unfold tripR_k0_t1 trip_k0_t1 chunkRows chunkIds
  rfl

/-- Row `jj` of chunk `k` is row `1024 · k + jj` of the matrix. -/
theorem chunkRows_apply (k : Fin k0_t1_loop.trips) (jj : Fin 1024) (kk : Fin 128) :
    chunkRows arg2 harg2 x2 k (ix2 jj kk) = x2 (ix2 (⟨1024 * k.val + jj.val, by have := k.isLt; have h8 := trips_eq; omega⟩ : Fin 8192) kk) := by
  unfold chunkRows
  rw [View.readAt_eq_ld, harg2.read_unread]
  refine congrArg x2 (funext fun a => Fin.ext ?_)
  have e := k0_off1_eq k
  match a with
  | ⟨0, _⟩ => show (k0_off1 k) 0 + 1 * jj.val = 1024 * k.val + jj.val; rw [e]; simp
  | ⟨1, _⟩ => show (k0_off1 k) 1 + 1 * kk.val = kk.val; rw [e]; simp

/-- Entry `jj` of chunk `k` of the id row is entry `1024 · k + jj`. -/
theorem chunkIds_apply (k : Fin k0_t1_loop.trips) (jj : Fin 1024) :
    chunkIds arg4 harg4 x4 k (ix2 (0 : Fin 1) jj) = x4 (ix2 (0 : Fin 1) (⟨1024 * k.val + jj.val, by have := k.isLt; have h8 := trips_eq; omega⟩ : Fin 8192)) := by
  unfold chunkIds
  rw [View.readAt_eq_ld, harg4.read_unread]
  refine congrArg x4 (funext fun a => Fin.ext ?_)
  have e := k0_off2_eq k
  match a with
  | ⟨0, _⟩ => show (k0_off2 k) 0 + 1 * 0 = 0; rw [e]; simp
  | ⟨1, _⟩ => show (k0_off2 k) 1 + 1 * jj.val = 1024 * k.val + jj.val; rw [e]; simp

/-- The masked score of anchor `r` against column `j` as a negative. -/
def negScore (r : Fin 512) (j : Fin 8192) : EReal :=
  if x3 (ix2 r (0 : Fin 1)) = x4 (ix2 (0 : Fin 1) j) then negFill else ∑ k : Fin 128, x1 (ix2 r k) * x2 (ix2 j k)

/-- The masked score of anchor `r` against column `j` as a positive. -/
def posScore (r : Fin 512) (j : Fin 8192) : EReal :=
  if x3 (ix2 r (0 : Fin 1)) = x4 (ix2 (0 : Fin 1) j) then ∑ k : Fin 128, x1 (ix2 r k) * x2 (ix2 j k) else posFill

/-- After the eighth chunk the first of the pair is the row's hardest negative from the negative fill. -/
theorem carried_fst_le (r : Fin 512) (x : EReal) :
    (carried c i arg1 harg1 arg2 harg2 arg3 harg3 arg4 harg4 arg5 harg5 x1 x2 x3 x4 8).1 (ix2 r (0 : Fin 1)) ≤ x ↔ negFill ≤ x ∧ ∀ j : Fin 8192, negScore x1 x2 x3 x4 r j ≤ x := by
  refine Cert.TripletOrder.chunked_upper negFill (negScore x1 x2 x3 x4 r) (fun n => (carried c i arg1 harg1 arg2 harg2 arg3 harg3 arg4 harg4 arg5 harg5 x1 x2 x3 x4 n).1 (ix2 r (0 : Fin 1))) rfl ?_ x
  intro n hn y
  have hn' : n < k0_t1_loop.trips := by rw [trips_eq]; exact hn
  show (carried c i arg1 harg1 arg2 harg2 arg3 harg3 arg4 harg4 arg5 harg5 x1 x2 x3 x4 (n + 1)).1 (ix2 r (0 : Fin 1)) ≤ y ↔ _
  rw [carried_succ c i arg1 harg1 arg2 harg2 arg3 harg3 arg4 harg4 arg5 harg5 x1 x2 x3 x4 n hn']
  show k0_pay5 x1 x3 _ _ _ (ix2 r (0 : Fin 1)) ≤ y ↔ _
  rw [pay5_le]
  refine and_congr Iff.rfl (forall_congr' fun jj => ?_)
  unfold negScore
  simp only [chunkRows_apply, chunkIds_apply]

/-- And the second is the row's hardest positive from the positive fill. -/
theorem le_carried_snd (r : Fin 512) (x : EReal) :
    x ≤ (carried c i arg1 harg1 arg2 harg2 arg3 harg3 arg4 harg4 arg5 harg5 x1 x2 x3 x4 8).2 (ix2 r (0 : Fin 1)) ↔ x ≤ posFill ∧ ∀ j : Fin 8192, x ≤ posScore x1 x2 x3 x4 r j := by
  refine Cert.TripletOrder.chunked_lower posFill (posScore x1 x2 x3 x4 r) (fun n => (carried c i arg1 harg1 arg2 harg2 arg3 harg3 arg4 harg4 arg5 harg5 x1 x2 x3 x4 n).2 (ix2 r (0 : Fin 1))) rfl ?_ x
  intro n hn y
  have hn' : n < k0_t1_loop.trips := by rw [trips_eq]; exact hn
  show y ≤ (carried c i arg1 harg1 arg2 harg2 arg3 harg3 arg4 harg4 arg5 harg5 x1 x2 x3 x4 (n + 1)).2 (ix2 r (0 : Fin 1)) ↔ _
  rw [carried_succ c i arg1 harg1 arg2 harg2 arg3 harg3 arg4 harg4 arg5 harg5 x1 x2 x3 x4 n hn']
  show y ≤ k0_pay6 x1 x3 _ _ _ (ix2 r (0 : Fin 1)) ↔ _
  rw [le_pay6]
  refine and_congr Iff.rfl (forall_congr' fun jj => ?_)
  unfold posScore
  simp only [chunkRows_apply, chunkIds_apply]

/-- The cost the step leaves for anchor `r`. -/
theorem out_apply (r : Fin 512) :
    out (F := Ideal) c i arg1 harg1 arg2 harg2 arg3 harg3 arg4 harg4 arg5 harg5 x1 x2 x3 x4 (ix1 r)
      = max (margin + (carried c i arg1 harg1 arg2 harg2 arg3 harg3 arg4 harg4 arg5 harg5 x1 x2 x3 x4 8).1 (ix2 r (0 : Fin 1)) - min ((carried c i arg1 harg1 arg2 harg2 arg3 harg3 arg4 harg4 arg5 harg5 x1 x2 x3 x4 8).2 (ix2 r (0 : Fin 1))) 0) 0 := by
  rw [out_eq, pay7_apply]

end Step

end Cert.KernelIdeal.Hand

end
-- ==== Proof.TripletSpec.lean ====
import Idealize.ShloMosaic.Lib.ValueIdx
import Idealize.ShloMosaic.PureOps.Ideal.Laws
import proofs.«178583_j7559142441509_2_alg».proof.Proof.TripletOrder

/-!
# The triplet cost of one anchor

For 8192 embedding rows of width 128 and an id per row, the score of two rows is their product. Row `j` is a
positive of anchor `i` when the ids agree and a negative otherwise. The hardest negative is the largest score
among the negatives, the hardest positive the smallest among the positives, each taken over ALL columns with the
columns that do not count replaced by a large finite fill of the harmless sign. The anchor's cost is
`max (margin + hardest negative − hardest positive) 0`.

Two programs compute it. One zeroes the diagonal of the score matrix first, so that the anchor's own column —
always a positive — contributes 0. The other leaves the diagonal alone and clamps the hardest positive at 0
afterwards. They agree because a row's product with itself is a sum of squares, hence never below 0, and because
a negative is never on the diagonal. This file states that comparison through the bounds of the four extrema.
-/

noncomputable section

namespace Cert.Triplet

open Idealize.ShloMosaic Idealize.ShloMosaic.ValueIdx
open scoped BigOperators

/-- The fill of a column that is no negative. -/
abbrev negFill : EReal := Ideal.ofBits .f32 0xF149F2CA#32
/-- The fill of a column that is no positive. -/
abbrev posFill : EReal := Ideal.ofBits .f32 0x7149F2CA#32
/-- The margin. -/
abbrev margin : EReal := Ideal.ofBits .f32 0x3E4CCCCD#32

/-- The positive fill is a positive real. -/
theorem zero_le_posFill : (0 : EReal) ≤ posFill := by
  show (0 : EReal) ≤ Ideal.ofBits .f32 0x7149F2CA#32
  simp [Ideal.ofBits, Ideal.ieee, -EReal.coe_mul]

/-- The word of `1.0` denotes 1. -/
theorem ofBits_one : Ideal.ofBits .f32 0x3F800000#32 = 1 := by
  simp [Ideal.ofBits, Ideal.ieee, -EReal.coe_mul]; norm_num

/-- The words of the two infinities. -/
theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

variable (X : (⟨2, ![8192, 128]⟩ : Shape).Idx → EReal) (ids : (⟨1, ![8192]⟩ : Shape).Idx → BitVec 32)

/-- The score of rows `i` and `j`. -/
def score (i j : Fin 8192) : EReal := ∑ k : Fin 128, X (ix2 i k) * X (ix2 j k)

/-- Column `j` as a negative of anchor `i`. -/
def negv (i j : Fin 8192) : EReal := if ids (ix1 i) = ids (ix1 j) then negFill else score X i j

/-- Column `j` as a positive of anchor `i`. -/
def posv (i j : Fin 8192) : EReal := if ids (ix1 i) = ids (ix1 j) then score X i j else posFill

/-- A row's score with itself is not negative. -/
theorem zero_le_score_self (i : Fin 8192) : 0 ≤ score X i i :=
  Cert.TripletOrder.zero_le_sum_mul_self _ _

/-- THE COMPARISON. `A`, `B`: the hardest negative and positive taken from the two fills over the plain scores.
    `A'`, `B'`: the same taken from the infinities over the scores with the diagonal zeroed. The clamped cost of
    the first pair is the cost of the second. -/
theorem cost_eq (i : Fin 8192) (A B A' B' : EReal)
    (hA : ∀ x, A ≤ x ↔ negFill ≤ x ∧ ∀ j, negv X ids i j ≤ x)
    (hB : ∀ x, x ≤ B ↔ x ≤ posFill ∧ ∀ j, x ≤ posv X ids i j)
    (hA' : ∀ x, A' ≤ x ↔ ∀ j, negv X ids i j ≤ x)
    (hB' : ∀ x, x ≤ B' ↔ ∀ j, x ≤ (if j = i then (0 : EReal) else posv X ids i j)) :
    max (margin + A - min B 0) 0 = max (margin + A' - B') 0 := by
  have e1 : A = A' :=
    Cert.TripletOrder.largest_eq (lo := negFill) (bot := (⊥ : EReal)) i hA
      (fun x => by rw [hA']; exact ⟨fun h => ⟨bot_le, h⟩, fun h => h.2⟩) (fun _ => bot_le)
      (by unfold negv; rw [if_pos rfl])
  have e2 : min B 0 = B' :=
    Cert.TripletOrder.smallest_clamped_eq (hi := posFill) (top := (⊤ : EReal)) (z := (0 : EReal)) i hB
      (fun x => by rw [hB']; exact ⟨fun h => ⟨le_top, h⟩, fun h => h.2⟩) (fun _ => le_top)
      (fun j hj => if_neg hj) (if_pos rfl)
      (by unfold posv; rw [if_pos rfl]; exact zero_le_score_self X i) zero_le_posFill
  rw [e1, e2]

end Cert.Triplet

end
-- ==== Proof.KIValue.lean ====
import proofs.«178583_j7559142441509_2_alg».proof.Proof.KIStep
import proofs.«178583_j7559142441509_2_alg».proof.Proof.TripletSpec
import Idealize.ShloMosaic.Lib.ValueLayout

set_option maxRecDepth 16384

/-!
# The kernel's result array, and what the program returns

The sixteen grid steps write back sixteen blocks of 512 costs; together they are one array of 8192 costs, entry
`i` being the cost the step `i / 512` leaves for its anchor `i % 512`. The last host line sums it.
-/

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Pay Cert.Triplet
open scoped BigOperators

variable (m : (ℓ : Loc nD τ sig) → Buf (Elt Ideal) ℓ) (ρ : Dev nD → PrngReg)

/-- The printed index maps, decided over the grid: the row tile and the id tile move with the grid point, the
    resident matrix and the resident id row stay, the result block moves with the grid point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = t.val :=
  (by decide +kernel : ∀ t : Fin grid0.N, _)

/-- The global row of anchor `r` of grid step `t`. -/
def rowOf (t : Fin cfg0.N) (r : Fin 512) : Fin 8192 :=
  ⟨512 * t.val + r.val, by have h := t.isLt; have hN : cfg0.N = 16 := N_0; have := r.isLt; omega⟩

/-! ## The input blocks, read at an index -/

theorem iblk0_apply (c : Dev nD) (t : Fin cfg0.N) (r : Fin 512) (k : Fin 128) :
    iblk m c 0 t (ix2 r k) = V m c main_v0 (ix2 (rowOf t r) k) := by
  show V m c main_v0 (((cfg0.win 0).blk t).view.emb (ix2 r k)) = _
  refine congrArg (V m c main_v0) (funext fun a => Fin.ext ?_)
  obtain ⟨e0, e1, -⟩ := idx_facts t
  match a with
  | ⟨0, _⟩ => show win0_0.index t (0 : Fin 2) * 512 + 1 * r.val = 512 * t.val + r.val; omega
  | ⟨1, _⟩ => show win0_0.index t (1 : Fin 2) * 128 + 1 * k.val = k.val; omega

theorem iblk1_apply (c : Dev nD) (t : Fin cfg0.N) (j : Fin 8192) (k : Fin 128) :
    iblk m c 1 t (ix2 j k) = V m c main_v0 (ix2 j k) := by
  show V m c main_v0 (((cfg0.win 1).blk t).view.emb (ix2 j k)) = _
  refine congrArg (V m c main_v0) (funext fun a => Fin.ext ?_)
  obtain ⟨-, -, e0, e1, -⟩ := idx_facts t
  match a with
  | ⟨0, _⟩ => show win0_1.index t (0 : Fin 2) * 8192 + 1 * j.val = j.val; omega
  | ⟨1, _⟩ => show win0_1.index t (1 : Fin 2) * 128 + 1 * k.val = k.val; omega

theorem iblk2_apply (c : Dev nD) (t : Fin cfg0.N) (r : Fin 512) :
    iblk m c 2 t (ix2 r (0 : Fin 1)) = V m c main_v1 (ix2 (rowOf t r) (0 : Fin 1)) := by
  show V m c main_v1 (((cfg0.win 2).blk t).view.emb (ix2 r (0 : Fin 1))) = _
  refine congrArg (V m c main_v1) (funext fun a => Fin.ext ?_)
  obtain ⟨-, -, -, -, e0, e1, -⟩ := idx_facts t
  match a with
  | ⟨0, _⟩ => show win0_2.index t (0 : Fin 2) * 512 + 1 * r.val = 512 * t.val + r.val; omega
  | ⟨1, _⟩ => show win0_2.index t (1 : Fin 2) * 1 + 1 * 0 = 0; omega

theorem iblk3_apply (c : Dev nD) (t : Fin cfg0.N) (j : Fin 8192) :
    iblk m c 3 t (ix2 (0 : Fin 1) j) = V m c main_v2 (ix2 (0 : Fin 1) j) := by
  show V m c main_v2 (((cfg0.win 3).blk t).view.emb (ix2 (0 : Fin 1) j)) = _
  refine congrArg (V m c main_v2) (funext fun a => Fin.ext ?_)
  obtain ⟨-, -, -, -, -, -, e0, e1, -⟩ := idx_facts t
  match a with
  | ⟨0, _⟩ => show win0_3.index t (0 : Fin 2) * 1 + 1 * 0 = 0; omega
  | ⟨1, _⟩ => show win0_3.index t (1 : Fin 2) * 8192 + 1 * j.val = j.val; omega

/-! ## The arrays the call finds, in terms of the program's arguments -/

/-- The rounded row matrix is, over the extended reals, the row matrix itself. -/
theorem V_v0 (c : Dev nD) (i : S8192x128.Idx) : V m c main_v0 i = m ((c.tc : Thread nD τ).loc main_arg0) i := by
  have e : @Eq (S8192x128.Idx → EReal) (V m c main_v0)
      (truncf (F := Ideal) (s := S8192x128) (φ := .f32) .bf16 (m ((c.tc : Thread nD τ).loc main_arg0)) bitsLt_bf16_f32) := by
    dsimp only [V, V0]
    simp only [hostOps0, List.flatten_cons, List.flatten_nil, List.append_nil]
    after_results
  rw [e]; rfl

/-- The id column at `(i, 0)` is id `i`. -/
theorem V_v1 (c : Dev nD) (i : Fin 8192) : V m c main_v1 (ix2 i (0 : Fin 1)) = m ((c.tc : Thread nD τ).loc main_arg1) (ix1 i) := by
  have e : (V m c main_v1 : S8192x1.Idx → BitVec 32)
      = shapeCast S8192x1 (m ((c.tc : Thread nD τ).loc main_arg1) : IVec S8192 32) shapeCasts_S8192_S8192x1 := by
    dsimp only [V, V0]
    simp only [hostOps0, List.flatten_cons, List.flatten_nil, List.append_nil]
    after_results
    rfl
  rw [e]; exact Cert.TileLayout.shapeCast_a_a1_apply _ _ i 0

/-- The id row at `(0, j)` is id `j`. -/
theorem V_v2 (c : Dev nD) (j : Fin 8192) : V m c main_v2 (ix2 (0 : Fin 1) j) = m ((c.tc : Thread nD τ).loc main_arg1) (ix1 j) := by
  have e : (V m c main_v2 : S1x8192.Idx → BitVec 32)
      = shapeCast S1x8192 (m ((c.tc : Thread nD τ).loc main_arg1) : IVec S8192 32) shapeCasts_S8192_S1x8192 := by
    dsimp only [V, V0]
    simp only [hostOps0, List.flatten_cons, List.flatten_nil, List.append_nil]
    after_results
    rfl
  rw [e]; exact shapeCast_a_1a_apply _ _ 0 j

/-! ## The result array -/

/-- The grid step that writes entry `i`, and the anchor's number within it. -/
def stepOf (i : S8192.Idx) : Fin cfg0.N :=
  ⟨(i 0).val / 512, by have h : (i 0).val < 8192 := (i 0).isLt; have hN : cfg0.N = 16 := N_0; omega⟩
def anchorOf (i : S8192.Idx) : Fin 512 := ⟨(i 0).val % 512, Nat.mod_lt _ (by decide)⟩

/-- The array of 8192 costs the sixteen steps leave. -/
def Gout (c : Dev nD) : S8192.Idx → EReal := fun i => outsAt m c (stepOf i) (ix1 (anchorOf i))

theorem Gout_at (c : Dev nD) (t : Fin cfg0.N) (r : Fin 512) (i : S8192.Idx) (h : (i 0).val = 512 * t.val + r.val) :
    Gout m c i = outsAt m c t (ix1 r) := by
  have e1 : stepOf i = t := Fin.ext (by show (i 0).val / 512 = t.val; have := r.isLt; omega)
  have e2 : anchorOf i = r := Fin.ext (by show (i 0).val % 512 = r.val; have := r.isLt; omega)
  unfold Gout
  rw [e1, e2]

/-- What grid step `t` writes back is block `t` of that array. -/
theorem flushed4_eq (c : Dev nD) (t : Fin cfg0.N) :
    (dats m 0 c).flushed 4 t = ((cfg0.win 4).blk t).view.read (Elt Ideal) (Gout m c) := by
  show (cfg0.win 4).cut (grid0.coords t) ((dats m 0 c).after 4 t) = _
  rw [after4]
  funext y
  obtain ⟨yy, rfl⟩ : ∃ yy : Fin 512, y = ix1 yy := ⟨y 0, eq_ix1 y⟩
  show outsAt m c t (ix1 yy) = Gout m c (((cfg0.win 4).blk t).view.emb (ix1 yy))
  refine (Gout_at m c t yy _ ?_).symm
  have e := (idx_facts t).2.2.2.2.2.2.2.2
  show win0_4.index t (0 : Fin 1) * 512 + 1 * yy.val = 512 * t.val + yy.val
  omega

/-- An index of the result array is in step `t`'s block iff it is in the block's range. -/
theorem mem_blk4 (t : Fin cfg0.N) (i : S8192.Idx) :
    i ∈ ((cfg0.win 4).blk t).view.set ↔ ∀ a : Fin 1, win0_4.index t a * S512.size a ≤ (i a).val ∧ (i a).val < win0_4.index t a * S512.size a + S512.size a := by
  show i ∈ ((View.whole main_v3).slice (win0_4.rect t)).set ↔ _
  rw [View.set_slice_whole, Rect.mem_set_unit]
  exact Iff.rfl

/-- Every entry is in the block of the step `i / 512`. -/
theorem cover4 (i : S8192.Idx) : ∃ t : Fin cfg0.N, (cfg0.win 4).flush t = true ∧ i ∈ ((cfg0.win 4).blk t).view.set := by
  have hi : (i 0).val < 8192 := (i 0).isLt
  refine ⟨stepOf i, flush0_4 _, ?_⟩
  rw [mem_blk4]
  intro a
  have e := (idx_facts (stepOf i)).2.2.2.2.2.2.2.2
  have ev : (stepOf i).val = (i 0).val / 512 := rfl
  match a with
  | ⟨0, _⟩ =>
    show win0_4.index (stepOf i) (0 : Fin 1) * 512 ≤ (i 0).val ∧ (i 0).val < win0_4.index (stepOf i) (0 : Fin 1) * 512 + 512
    omega

/-- THE RESULT ARRAY after the call. -/
theorem final4 (c : Dev nD) : (dats m 0 c).arrAt 4 cfg0.N = Gout m c :=
  (dats m 0 c).arrAt_eq_of_cover 4 (Gout m c) (fun t _ => flushed4_eq m c t) cover4

/-! ## What the program returns -/

/-- The last line sums the result array from zero. -/
theorem AT_v4 (c : Dev nD) :
    AT m c main_v4 = Host.reduceAdd (F := Ideal) (Gout m c) (constant (F := Ideal) S_ .f32 0x00000000#32) reducesTo_S8192_S_d0 h_S_ := by
  have e : AT m c main_v4
      = Host.reduceAdd (F := Ideal) (Wt m c (Proc.devRef .tc main_v3)) (constant (F := Ideal) S_ .f32 0x00000000#32) reducesTo_S8192_S_d0 h_S_ := by
    unfold AT
    simp only [hostOps1, List.flatten_cons, List.flatten_nil, List.append_nil]
    after_results
  rw [e, Wt_v3, final4]

/-- THE RUN, READ: the program ends with its result at the sum of the 8192 costs and both arguments as launched. -/
theorem run_value : θ_run defs (onTc (τ := τ) (main (F := Ideal))) ⟨m, fun _ => 0, ρ⟩ (fun r => ∀ c : Dev nD,
      r.2.mem ((c.tc : Thread nD τ).loc main_v4)
        = Host.reduceAdd (F := Ideal) (Gout m c) (constant (F := Ideal) S_ .f32 0x00000000#32) reducesTo_S8192_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (by decide)).trans (AT_v4 m c),
     ((h c).2 main_arg0 (by decide)).trans ((AT_of_ne m c main_arg0 (by decide) (by decide) (by decide)).trans
        (V_of_ne m c main_arg0 (by decide) (by decide) (by decide))),
     ((h c).2 main_arg1 (by decide)).trans ((AT_of_ne m c main_arg1 (by decide) (by decide) (by decide)).trans
        (V_of_ne m c main_arg1 (by decide) (by decide) (by decide)))⟩) (run_main m ρ)

end Cert.KernelIdeal.Hand

end
-- ==== Proof.RefCost.lean ====
import proofs.«178583_j7559142441509_2_alg».proof.Proof.Gen.ReferenceIdeal.Read
import proofs.«178583_j7559142441509_2_alg».proof.Proof.LibRowExtrema
import proofs.«178583_j7559142441509_2_alg».proof.Proof.LibMaskSelect
import proofs.«178583_j7559142441509_2_alg».proof.Proof.TripletSpec

/-!
# The reference's cost of one anchor

The reference forms the whole 8192 × 8192 score matrix, multiplies it entry by entry with one minus the identity
matrix, masks it twice by id equality and reduces each row with a maximum from −∞ and a minimum from +∞. Read at
anchor `i`: off the diagonal the factor is one, so a negative's entry is its plain score (a negative is never on
the diagonal) and a positive's entry is its plain score except for the anchor's own column, whose entry is zero.
-/

noncomputable section

namespace Cert.ReferenceIdeal.RefCost

open Cert.ReferenceIdeal Cert.ReferenceIdeal.Gen Cert.ReferenceIdeal.Read
open Idealize.ShloMosaic Idealize.ShloMosaic.ValueIdx Cert.Triplet
open scoped BigOperators

variable (x0 : (⟨S8192x128, .f32⟩ : BufTy).Contents (Elt Ideal)) (x1 : (⟨S8192, .i32⟩ : BufTy).Contents (Elt Ideal))

/-- Two row numbers below 8192 are equal exactly when their 32-bit words are. -/
theorem ofNat_eq_iff (i j : Fin 8192) : BitVec.ofNat 32 i.val = BitVec.ofNat 32 j.val ↔ i = j := by
  constructor
  · intro h
    have h' := congrArg BitVec.toNat h
    simp only [BitVec.toNat_ofNat] at h'
    have hi := i.isLt; have hj := j.isLt
    exact Fin.ext (by omega)
  · rintro rfl; rfl

/-- The score matrix at `(i, j)`: the product of rows `i` and `j`. -/
theorem v1_at (i j : Fin 8192) : val_main_v1 (F := Ideal) x0 (ix2 i j) = score x0 i j := by
  rw [val_main_v1_apply]
  unfold score
  refine Finset.sum_congr rfl fun k _ => ?_
  rw [val_main_v0_apply]
  have el : lidx_main_v1 (ix2 i j) k = ix2 i k := funext fun a => Fin.ext (by
    match a with
    | ⟨0, _⟩ => rfl
    | ⟨1, _⟩ => rfl)
  have er : idx_main_v0 (ridx_main_v1 (ix2 i j) k) = ix2 j k := funext fun a => Fin.ext (by
    match a with
    | ⟨0, _⟩ => rfl
    | ⟨1, _⟩ => rfl)
  rw [el, er]

/-- One minus the identity matrix at `(i, j)`. -/
theorem v9_at (i j : Fin 8192) : val_main_v9 (F := Ideal) (ix2 i j) = if i = j then (0 : EReal) else 1 := by
  rw [val_main_v9_apply, val_main_v8_apply, val_main_cst_apply, val_main_v7_apply, val_main_v6_apply, val_main_v5_apply,
    val_main_v2_apply, val_main_v4_apply, val_main_c_apply, val_main_v3_apply]
  show Ideal.ofBits .f32 0x3F800000#32
      - (((IntOp.cmpi .eq (IntOp.addi (BitVec.ofNat 32 i.val) 0#32) (BitVec.ofNat 32 j.val)).toNat : ℝ) : EReal) = _
  have hadd : IntOp.addi (BitVec.ofNat 32 i.val) 0#32 = BitVec.ofNat 32 i.val := by unfold IntOp.addi; simp
  rw [hadd, ofBits_one]
  by_cases h : i = j
  · have hb : IntOp.cmpi .eq (BitVec.ofNat 32 i.val) (BitVec.ofNat 32 j.val) = 1 :=
      (Cert.LibMaskSelect.cmpi_eq_one_iff _ _).mpr ((ofNat_eq_iff i j).mpr h)
    rw [hb, if_pos h]
    show (1 : EReal) - (((1 : ℕ) : ℝ) : EReal) = 0
    rw [Nat.cast_one, ← EReal.coe_one, ← EReal.coe_sub, sub_self, EReal.coe_zero]
  · have hb : IntOp.cmpi .eq (BitVec.ofNat 32 i.val) (BitVec.ofNat 32 j.val) = 0 :=
      eq_zero_of_ne_one ((Cert.LibMaskSelect.cmpi_eq_one_iff _ _).not.mpr ((ofNat_eq_iff i j).not.mpr h))
    rw [hb, if_neg h]
    show (1 : EReal) - (((0 : ℕ) : ℝ) : EReal) = 1
    rw [Nat.cast_zero, EReal.coe_zero, sub_zero]

/-- The id mask at `(i, j)`. -/
theorem v15_at (i j : Fin 8192) : val_main_v15 (F := Ideal) x1 (ix2 i j) = IntOp.cmpi .eq (x1 (ix1 i)) (x1 (ix1 j)) := by
  rw [val_main_v15_apply, val_main_v13_apply, val_main_v14_apply, val_main_v11_apply, val_main_v12_apply]
  have e1 : idx_main_v11 (idx_main_v13 (ix2 i j)) = ix1 i := funext fun a => Fin.ext (by
    match a with
    | ⟨0, _⟩ => rfl)
  have e2 : idx_main_v12 (idx_main_v14 (ix2 i j)) = ix1 j := funext fun a => Fin.ext (by
    match a with
    | ⟨0, _⟩ => rfl)
  rw [e1, e2]

/-- The diagonal-zeroed score at `(i, j)`. -/
theorem v10_at (i j : Fin 8192) : val_main_v10 (F := Ideal) x0 (ix2 i j) = score x0 i j * (if i = j then (0 : EReal) else 1) := by
  rw [val_main_v10_apply, v1_at, v9_at]; rfl

/-- The negatives' family at `(i, j)` is the plain one: a negative is off the diagonal. -/
theorem v17_at (i j : Fin 8192) : val_main_v17 (F := Ideal) x0 x1 (ix2 i j) = negv x0 x1 i j := by
  rw [val_main_v17_apply, val_main_v16_apply, v15_at, v10_at, val_main_call0_v1_apply, val_main_call0_v0_apply,
    val_main_cst_0_apply, Cert.LibMaskSelect.select_not_eq]
  unfold negv
  by_cases h : x1 (ix1 i) = x1 (ix1 j)
  · rw [if_pos h, if_pos h]; rfl
  · have hij : i ≠ j := fun e => h (e ▸ rfl)
    rw [if_neg h, if_neg h, if_neg hij, mul_one]

/-- The positives' family at `(i, j)`: the plain one, except zero in the anchor's own column. -/
theorem v19_at (i j : Fin 8192) :
    val_main_v19 (F := Ideal) x0 x1 (ix2 i j) = if j = i then (0 : EReal) else posv x0 x1 i j := by
  rw [val_main_v19_apply, v15_at, v10_at, val_main_call1_v1_apply, val_main_call1_v0_apply,
    val_main_cst_2_apply, Cert.LibMaskSelect.select_eq]
  unfold posv
  by_cases hji : j = i
  · subst hji
    rw [if_pos rfl, if_pos rfl, if_pos rfl, mul_zero]
  · have hij : ¬ i = j := fun e => hji e.symm
    rw [if_neg hji, if_neg hij, mul_one]
    rfl

/-- The reference's hardest negative at anchor `i`, by its upper bounds. -/
theorem v18_le (i : Fin 8192) (x : EReal) :
    val_main_v18 (F := Ideal) x0 x1 (ix1 i) ≤ x ↔ ∀ j : Fin 8192, negv x0 x1 i j ≤ x := by
  unfold val_main_v18
  refine (Cert.LibRowExtrema.hostRowMax_le _ _ _ (by decide) _ i x).trans ?_
  rw [val_main_cst_1_apply, Ideal.ofBits_def, ofBits_neg_inf]
  simp only [bot_le, true_and, v17_at]

/-- The reference's hardest positive at anchor `i`, by its lower bounds. -/
theorem le_v20 (i : Fin 8192) (x : EReal) :
    x ≤ val_main_v20 (F := Ideal) x0 x1 (ix1 i) ↔ ∀ j : Fin 8192, x ≤ (if j = i then (0 : EReal) else posv x0 x1 i j) := by
  unfold val_main_v20
  refine (Cert.LibRowExtrema.le_hostRowMin _ _ _ (by decide) _ i x).trans ?_
  rw [val_main_cst_3_apply, Ideal.ofBits_def, ofBits_pos_inf]
  simp only [le_top, true_and, v19_at]

/-- The reference's cost at anchor `i`. -/
theorem v25_at (i : Fin 8192) :
    val_main_v25 (F := Ideal) x0 x1 (ix1 i)
      = max (margin + val_main_v18 (F := Ideal) x0 x1 (ix1 i) - val_main_v20 (F := Ideal) x0 x1 (ix1 i)) 0 := by
  rw [val_main_v25_apply, val_main_v23_apply, val_main_v22_apply, val_main_v21_apply, val_main_cst_4_apply,
    val_main_v24_apply, val_main_cst_5_apply]
  simp only [Ideal.maximumf_def, Ideal.subf_def, Ideal.addf_def, Ideal.ofBits_def, Ideal.ofBits_zero_f32]

end Cert.ReferenceIdeal.RefCost

end
-- ==== Proof.Bridge.lean ====
import proofs.«178583_j7559142441509_2_alg».proof.Proof.KIValue
import proofs.«178583_j7559142441509_2_alg».proof.Proof.RefCost

set_option maxRecDepth 16384

/-!
# The kernel's costs are the reference's

Entry `i` of the kernel's result array is the cost that grid step `i / 512` computes for its anchor `i % 512`
from its row tile, its id tile and the two resident operands. Read through the blocks, the masked scores that step
compares are the masked scores of global row `i`; so the pair it ends with has the bounds of row `i`'s hardest
negative and hardest positive, and the comparison of the two cost formulas applies.
-/

noncomputable section

namespace Cert.Bridge

open Idealize.ShloMosaic Idealize.ShloMosaic.TcCoe Idealize.ShloMosaic.ValueIdx
open Idealize.SL Idealize.SL.Sem
open Cert.KernelIdeal Cert.KernelIdeal.Gen Cert.KernelIdeal.Hand Cert.KernelIdeal.Pay Cert.Triplet
open scoped BigOperators

variable (m : (ℓ : Loc nD τ sig) → Buf (Elt Ideal) ℓ)

/-- The row matrix and the ids as the program is launched with them. -/
abbrev rows (c : Dev nD) : (⟨2, ![8192, 128]⟩ : Shape).Idx → EReal := m ((c.tc : Thread nD τ).loc main_arg0)
abbrev ids (c : Dev nD) : (⟨1, ![8192]⟩ : Shape).Idx → BitVec 32 := m ((c.tc : Thread nD τ).loc main_arg1)

/-- The negatives a grid step compares are global row's negatives. -/
theorem negScore_blocks (c : Dev nD) (t : Fin cfg0.N) (r : Fin 512) (j : Fin 8192) :
    negScore (iblk m c 0 t) (iblk m c 1 t) (iblk m c 2 t) (iblk m c 3 t) r j = negv (rows m c) (ids m c) (rowOf t r) j := by
  unfold negScore negv score
  simp only [iblk0_apply, iblk1_apply, iblk2_apply, iblk3_apply]
  rw [V_v1 m c (rowOf t r), V_v2 m c j]
  refine if_congr Iff.rfl rfl (Finset.sum_congr rfl fun k _ => ?_)
  rw [V_v0, V_v0]

/-- And its positives the global row's positives. -/
theorem posScore_blocks (c : Dev nD) (t : Fin cfg0.N) (r : Fin 512) (j : Fin 8192) :
    posScore (iblk m c 0 t) (iblk m c 1 t) (iblk m c 2 t) (iblk m c 3 t) r j = posv (rows m c) (ids m c) (rowOf t r) j := by
  unfold posScore posv score
  simp only [iblk0_apply, iblk1_apply, iblk2_apply, iblk3_apply]
  rw [V_v1 m c (rowOf t r), V_v2 m c j]
  refine if_congr Iff.rfl (Finset.sum_congr rfl fun k _ => ?_) rfl
  rw [V_v0, V_v0]

/-- THE TWO COST ARRAYS ARE ONE: the kernel's 8192 costs are the reference's, anchor by anchor. -/
theorem Gout_eq_ref (c : Dev nD) :
    Gout m c = Cert.ReferenceIdeal.Read.val_main_v25 (F := Ideal) (rows m c) (ids m c) := by
  funext idx
  obtain ⟨i, rfl⟩ : ∃ i : Fin 8192, idx = ix1 i := ⟨idx 0, eq_ix1 idx⟩
  have hsplit : i.val = 512 * (stepOf (ix1 i)).val + (anchorOf (ix1 i)).val := by
    show i.val = 512 * (i.val / 512) + i.val % 512
    omega
  have hi : rowOf (stepOf (ix1 i)) (anchorOf (ix1 i)) = i := Fin.ext hsplit.symm
  rw [Gout_at m c (stepOf (ix1 i)) (anchorOf (ix1 i)) (ix1 i) hsplit]
  unfold outsAt
  rw [out_apply, Cert.ReferenceIdeal.RefCost.v25_at]
  refine cost_eq (rows m c) (ids m c) i _ _ _ _ (fun x => ?_) (fun x => ?_)
    (Cert.ReferenceIdeal.RefCost.v18_le (rows m c) (ids m c) i) (Cert.ReferenceIdeal.RefCost.le_v20 (rows m c) (ids m c) i)
  · rw [carried_fst_le]
    simp only [negScore_blocks, hi]
  · rw [le_carried_snd]
    simp only [posScore_blocks, hi]

end Cert.Bridge

end
-- ==== Proof.lean ====
/-
  A triplet loss with hardest-example mining, computed two ways, and why the two programs return the same number.

  The arguments are 8192 embedding rows of width 128 and an id per row. Both programs score every anchor against
  every row by the product of the two rows, take per anchor the largest score among the rows of another id and the
  smallest among the rows of the same id (a row that does not count is replaced by ∓1e30, a finite fill of the
  harmless sign), form max(0.2 + hardest negative − hardest positive, 0), and sum the 8192 costs.

  They differ in three ways, none of which changes a value over the extended reals.
  * Tiling. The kernel handles 512 anchors per grid step and walks the 8192 columns in eight chunks of 1024,
    keeping a running pair; the reference reduces whole rows. A maximum or a minimum is determined by its bounds,
    and the bounds of the running pair after the eighth chunk are those of the whole row.
  * The diagonal. The reference multiplies the score matrix by one minus the identity before mining, so the
    anchor's own column, always of the same id, contributes zero to the minimum. The kernel keeps the diagonal and
    clamps the minimum at zero afterwards. A row's score with itself is a sum of squares, so it is never below zero
    and never decides the clamped minimum; a row of another id is never on the diagonal.
  * The start values. The kernel starts its pair from the two fills, the reference from the two infinities. The
    negative fill is attained in the anchor's own column, and the positive fill is above zero, where the minimum is
    clamped anyway.
  The kernel rounds the rows to a narrower format before multiplying; over the extended reals a change of format is
  the identity.

  The two frames of the kernel program are proved by hand: its one call reads the row matrix through two windows, a
  tile that moves with the grid and the whole matrix kept resident, so the array is held in two half shares. The
  reference's frame is its generated run with the result dropped.
-/
import proofs.«178583_j7559142441509_2_alg».proof.Defs
import proofs.«178583_j7559142441509_2_alg».proof.Proof.Gen.Kernel
import proofs.«178583_j7559142441509_2_alg».proof.Proof.Gen.KernelIdeal
import proofs.«178583_j7559142441509_2_alg».proof.Proof.Gen.ReferenceIdeal
import proofs.«178583_j7559142441509_2_alg».proof.Proof.Gen.Pre_finite_inputs
import proofs.«178583_j7559142441509_2_alg».proof.Proof.Gen.ReferenceIdeal.Run
import proofs.«178583_j7559142441509_2_alg».proof.Proof.KFrame
import proofs.«178583_j7559142441509_2_alg».proof.Proof.KIFrame
import proofs.«178583_j7559142441509_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to its end and leaves both arguments as launched. -/
theorem frame_k : Cert.frame_Kernel := fun m ρ _ => Cert.Kernel.Hand.frame m ρ

/-- So does its reading over the extended reals. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From memories agreeing on the arguments both programs end with the sum of ONE array of 8192 costs. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  unfold Cert.ReferenceIdeal.Read.val_main_v26
  rw [Cert.Bridge.Gout_eq_ref m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
